-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1x256 : Shape := ⟨2, ![1, 256]⟩
abbrev S1024x128x128 : Shape := ⟨3, ![1024, 128, 128]⟩
abbrev S1024x128 : Shape := ⟨2, ![1024, 128]⟩
abbrev S1024 : Shape := ⟨1, ![1024]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S1024x128x128 : S_.BroadcastsInDim S1024x128x128 (![] : Fin 0 → Fin S1024x128x128.rank)
  reducesTo_S1024x128x128_S_d0_1_2 : S1024x128x128.ReducesTo [0, 1, 2] S_

variable [Facts]

def fn_part1 {F : FTy → Type} [FloatOps F] (main_v13 : IVec S_ 1) (main_v16 : IVec S1024x128x128 1) : IVec S_ 1 :=
  let main_c_5 : IVec S_ 1 := constantI S_ 1 1#1
  let main_v17 : IVec S_ 1 := (fun x v => Host.reduce IntOp.andi x v reducesTo_S1024x128x128_S_d0_1_2 h_S_) main_v16 main_c_5
  let main_v18 : IVec S_ 1 := andi main_v13 main_v17
  main_v18

def fn {F : FTy → Type} [FloatOps F] (main_arg0 : FVec F S100000x256 .f32) (main_arg1 : FVec F S100000x256 .f32) (main_arg2 : FVec F S1x256 .f32) (main_arg3 : FVec F S1024x128x128 .f32) (main_arg4 : IVec S1024x128 32) (main_arg5 : IVec S1024x128x128 32) (main_arg6 : IVec S1024 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S1024x128x128 .f32 := Host.absf main_arg3
  let main_cst_4 : FVec F S_ .f32 := constant S_ .f32 0x7F800000#32
  let main_v15 : FVec F S1024x128x128 .f32 := broadcastInDim S1024x128x128 ![] bcast_S_S1024x128x128 main_cst_4
  let main_v16 : IVec S1024x128x128 1 := cmpf .olt main_v14 main_v15
  fn_part1 (F := F) main_v13 main_v16
-- ==== Kernel.lean ====
abbrev S100000x256 : Shape := ⟨2, ![100000, 256]⟩
abbrev S1x256 : Shape := ⟨2, ![1, 256]⟩
abbrev S1024x128x128 : Shape := ⟨3, ![1024, 128, 128]⟩
abbrev S1024x128 : Shape := ⟨2, ![1024, 128]⟩
abbrev S1024 : Shape := ⟨1, ![1024]⟩
abbrev S_ : Shape := ⟨0, ![]⟩
abbrev S1024x128x1 : Shape := ⟨3, ![1024, 128, 1]⟩
abbrev S1024x128x256 : Shape := ⟨3, ![1024, 128, 256]⟩
abbrev S1024x1 : Shape := ⟨2, ![1024, 1]⟩
abbrev S16x128x256 : Shape := ⟨3, ![16, 128, 256]⟩
abbrev S16x128x128 : Shape := ⟨3, ![16, 128, 128]⟩
abbrev S16x1 : Shape := ⟨2, ![16, 1]⟩
abbrev S16x128 : Shape := ⟨2, ![16, 128]⟩
abbrev S16x128x1 : Shape := ⟨3, ![16, 128, 1]⟩
abbrev S1x1x256 : Shape := ⟨3, ![1, 1, 256]⟩
abbrev S16 : Shape := ⟨1, ![16]⟩
abbrev S16x256 : Shape := ⟨2, ![16, 256]⟩

abbrev nBuf : Space → Nat
  | .hbm => 61
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S1x256, .f32⟩
  | .hbm, ⟨3, _⟩ => ⟨S1024x128x128, .f32⟩
  | .hbm, ⟨4, _⟩ => ⟨S1024x128, .i32⟩
  | .hbm, ⟨5, _⟩ => ⟨S1024x128x128, .i32⟩
  | .hbm, ⟨6, _⟩ => ⟨S1024, .i32⟩
  | .hbm, ⟨7, _⟩ => ⟨S_, .i32⟩
  | .hbm, ⟨8, _⟩ => ⟨S1024x128, .i32⟩
  | .hbm, ⟨9, _⟩ => ⟨S1024x128, .i1⟩
  | .hbm, ⟨10, _⟩ => ⟨S_, .i32⟩
  | .hbm, ⟨11, _⟩ => ⟨S1024x128, .i32⟩
  | .hbm, ⟨12, _⟩ => ⟨S1024x128, .i32⟩
  | .hbm, ⟨13, _⟩ => ⟨S1024x128, .i32⟩
  | .hbm, ⟨14, _⟩ => ⟨S1024x128x1, .i32⟩
  | .hbm, ⟨15, _⟩ => ⟨S1024x128x256, .f32⟩
  | .hbm, ⟨16, _⟩ => ⟨S_, .i32⟩
  | .hbm, ⟨17, _⟩ => ⟨S1024x128, .i32⟩
  | .hbm, ⟨18, _⟩ => ⟨S1024x128, .i1⟩
  | .hbm, ⟨19, _⟩ => ⟨S_, .i32⟩
  | .hbm, ⟨20, _⟩ => ⟨S1024x128, .i32⟩
  | .hbm, ⟨21, _⟩ => ⟨S1024x128, .i32⟩
  | .hbm, ⟨22, _⟩ => ⟨S1024x128, .i32⟩
  | .hbm, ⟨23, _⟩ => ⟨S1024x128x1, .i32⟩
  | .hbm, ⟨24, _⟩ => ⟨S1024x128x256, .f32⟩
  | .hbm, ⟨25, _⟩ => ⟨S1024x1, .f32⟩
  | .hbm, ⟨26, _⟩ => ⟨S1024, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S1024, .f32⟩
  | .hbm, ⟨52, _⟩ => ⟨S1024, .f32⟩
  | .hbm, ⟨53, _⟩ => ⟨S1024, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .local _ .vmem, ⟨0, _⟩ => ⟨S16x128x256, .f32⟩
  | .local _ .vmem, ⟨1, _⟩ => ⟨S16x128x256, .f32⟩
  | .local _ .vmem, ⟨2, _⟩ => ⟨S16x128x256, .f32⟩
  | .local _ .vmem, ⟨3, _⟩ => ⟨S16x128x256, .f32⟩
  | .local _ .vmem, ⟨4, _⟩ => ⟨S1x256, .f32⟩
  | .local _ .vmem, ⟨5, _⟩ => ⟨S16x128x128, .f32⟩
  | .local _ .vmem, ⟨6, _⟩ => ⟨S16x128x128, .f32⟩
  | .local _ .vmem, ⟨7, _⟩ => ⟨S16x128x128, .i32⟩
  | .local _ .vmem, ⟨8, _⟩ => ⟨S16x128x128, .i32⟩
  | .local _ .vmem, ⟨9, _⟩ => ⟨S16x1, .f32⟩
  | .local _ .vmem, ⟨10, _⟩ => ⟨S16x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_cst_5 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_cst_9 : Ref sig .tc := ⟨.hbm, 59, rfl⟩
abbrev main_v36 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1024x128 : S_.BroadcastsInDim S1024x128 (![] : Fin 0 → Fin S1024x128.rank)
  bcast_S1024x128_S1024x128x1_0_1 : S1024x128.BroadcastsInDim S1024x128x1 (![0, 1] : Fin 2 → Fin S1024x128x1.rank)
  inb_S16x128x256_S16x128x256_0_0_0 : ∀ a, (![0, 0, 0] : Fin 3 → Nat) a + S16x128x256.size a ≤ S16x128x256.size a
  h_S16x128x256 : 0 < S16x128x256.numel
  shapeCasts_S16x128x256_S16x128x256 : S16x128x256.ShapeCasts S16x128x256
  inb_S1x256_S1x256_0_0 : ∀ a, (![0, 0] : Fin 2 → Nat) a + S1x256.size a ≤ S1x256.size a
  h_S1x256 : 0 < S1x256.numel
  reduces_S16x128x256_S16x128 : S16x128x256.Reduces [2] S16x128
  shapeCasts_S16x128_S16x128x1 : S16x128.ShapeCasts S16x128x1
  broadcasts_S16x128x1_S16x128x256 : S16x128x1.Broadcasts S16x128x256
  shapeCasts_S1x256_S1x1x256 : S1x256.ShapeCasts S1x1x256
  broadcasts_S1x1x256_S16x128x256 : S1x1x256.Broadcasts S16x128x256
  bitsLt_bf16_f32 : FTy.bits .bf16 < FTy.bits .f32
  inb_S16x128x128_S16x128x128_0_0_0 : ∀ a, (![0, 0, 0] : Fin 3 → Nat) a + S16x128x128.size a ≤ S16x128x128.size a
  h_S16x128x128 : 0 < S16x128x128.numel
  reduces_S16x128x128_S16x128 : S16x128x128.Reduces [2] S16x128
  broadcasts_S16x128x1_S16x128x128 : S16x128x1.Broadcasts S16x128x128
  reduces_S16x128_S16 : S16x128.Reduces [1] S16
  reduces_S16x128x256_S16x256 : S16x128x256.Reduces [1] S16x256
  reduces_S16x256_S16 : S16x256.Reduces [1] S16
  shapeCasts_S16_S16x1 : S16.ShapeCasts S16x1
  inb_S16x1_S16x1_0_0 : ∀ a, (![0, 0] : Fin 2 → Nat) a + S16x1.size a ≤ S16x1.size a
  h_S16x1 : 0 < S16x1.numel
  shapeCasts_S1024x1_S1024 : S1024x1.ShapeCasts S1024
  reducesTo_S1024_S_d0 : S1024.ReducesTo [0] S_
  h_S_ : 0 < S_.numel
  bcast_S_S1024 : S_.BroadcastsInDim S1024 (![] : Fin 0 → Fin S1024.rank)
  gather_S100000x256_S1024x128x1_S1024x128x256_2_0_n_n_0_2_1256_wf : GatherDims.WF S100000x256 S1024x128x1 S1024x128x256 [2] [0] [] [0] [] 2 ![1, 256]
  dot_S16x128x256_S16x128x256_S16x128x128_2_2_1_1_0_0_wf : DotDims.WF S16x128x256 S16x128x256 S16x128x128 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x256.size a ≤ S1024x128x256.size a
  hwx0_0 : ∀ i : grid0.Coords, EltTy.bits .f32 = 32 ∨ (Rect.block (s := S1024x128x256) S16x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x256.size a ≤ S1024x128x256.size a
  hwx0_1 : ∀ i : grid0.Coords, EltTy.bits .f32 = 32 ∨ (Rect.block (s := S1024x128x256) S16x128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x128x128.size a ≤ S1024x128x128.size a
  hwx0_3 : ∀ i : grid0.Coords, EltTy.bits .f32 = 32 ∨ (Rect.block (s := S1024x128x128) S16x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x128x128.size a ≤ S1024x128x128.size a
  hwx0_4 : ∀ i : grid0.Coords, EltTy.bits .i32 = 32 ∨ (Rect.block (s := S1024x128x128) S16x128x128.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S1024x1.size a
  hwx0_5 : ∀ i : grid0.Coords, EltTy.bits .f32 = 32 ∨ (Rect.block (s := S1024x1) S16x1.size (cc0_transform_5 i) (hinb0_5 i)).WholeWords (EltTy.packing .f32)

variable [Facts₀]

def gather_S100000x256_S1024x128x1_S1024x128x256_2_0_n_n_0_2_1256 : GatherDims S100000x256 S1024x128x1 S1024x128x256 where
  offsetDims := [2]
  collapsedSliceDims := [0]
  operandBatchingDims := []
  startIndicesBatchingDims := []
  startIndexMap := [0]
  indexVectorDim := 2
  sliceSizes := ![1, 256]
  wf := gather_S100000x256_S1024x128x1_S1024x128x256_2_0_n_n_0_2_1256_wf
def dot_S16x128x256_S16x128x256_S16x128x128_2_2_1_1_0_0 : DotDims S16x128x256 S16x128x256 S16x128x128 where
  lhsContracting := [2]
  rhsContracting := [2]
  lhsNonContracting := [1]
  rhsNonContracting := [1]
  lhsBatch := [0]
  rhsBatch := [0]
  wf := dot_S16x128x256_S16x128x256_S16x128x128_2_2_1_1_0_0_wf

abbrev win0_0 : Pipeline.Window sig grid0 :=
  Pipeline.Window.ofSpec (Memref.whole main_v6) S16x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S16x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S16x128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S16x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x256 : Shape := ⟨2, ![100000, 256]⟩
abbrev S1x256 : Shape := ⟨2, ![1, 256]⟩
abbrev S1024x128x128 : Shape := ⟨3, ![1024, 128, 128]⟩
abbrev S1024x128 : Shape := ⟨2, ![1024, 128]⟩
abbrev S1024 : Shape := ⟨1, ![1024]⟩
abbrev S_ : Shape := ⟨0, ![]⟩
abbrev S100000 : Shape := ⟨1, ![100000]⟩
abbrev S100000x1 : Shape := ⟨2, ![100000, 1]⟩
abbrev S1024x128x1 : Shape := ⟨3, ![1024, 128, 1]⟩
abbrev S1024x128x256 : Shape := ⟨3, ![1024, 128, 256]⟩
abbrev S1024x256 : Shape := ⟨2, ![1024, 256]⟩

abbrev nBuf : Space → Nat
  | .hbm => 151
  | .vmem => 0
  | .smem => 0
  | _ => 0

abbrev hbmTy0_0 (i : Nat) : BufTy := match i % 128 with
  | 0 => ⟨S100000x256, .f32⟩
  | 1 => ⟨S100000x256, .f32⟩
  | 2 => ⟨S1x256, .f32⟩
  | 3 => ⟨S1024x128x128, .f32⟩
  | 4 => ⟨S1024x128, .i32⟩
  | 5 => ⟨S1024x128x128, .i32⟩
  | 6 => ⟨S1024, .i32⟩
  | 7 => ⟨S100000x256, .f32⟩
  | 8 => ⟨S_, .f32⟩
  | 9 => ⟨S100000, .f32⟩
  | 10 => ⟨S100000x1, .f32⟩
  | 11 => ⟨S100000x1, .f32⟩
  | 12 => ⟨S_, .f32⟩
  | 13 => ⟨S100000x1, .f32⟩
  | 14 => ⟨S100000x1, .f32⟩
  | 15 => ⟨S100000x256, .f32⟩
  | 16 => ⟨S100000x256, .f32⟩
  | 17 => ⟨S100000x256, .f32⟩
  | 18 => ⟨S_, .f32⟩
  | 19 => ⟨S100000, .f32⟩
  | 20 => ⟨S100000x1, .f32⟩
  | 21 => ⟨S100000x1, .f32⟩
  | 22 => ⟨S_, .f32⟩
  | 23 => ⟨S100000x1, .f32⟩
  | 24 => ⟨S100000x1, .f32⟩
  | 25 => ⟨S100000x256, .f32⟩
  | 26 => ⟨S100000x256, .f32⟩
  | 27 => ⟨S100000x256, .f32⟩
  | 28 => ⟨S100000x256, .f32⟩
  | 29 => ⟨S100000x256, .f32⟩
  | 30 => ⟨S_, .f32⟩
  | 31 => ⟨S100000, .f32⟩
  | 32 => ⟨S100000x1, .f32⟩
  | 33 => ⟨S100000x1, .f32⟩
  | 34 => ⟨S_, .f32⟩
  | 35 => ⟨S100000x1, .f32⟩
  | 36 => ⟨S100000x1, .f32⟩
  | 37 => ⟨S100000x256, .f32⟩
  | 38 => ⟨S100000x256, .f32⟩
  | 39 => ⟨S_, .i32⟩
  | 40 => ⟨S1024x128, .i32⟩
  | 41 => ⟨S1024x128, .i1⟩
  | 42 => ⟨S_, .i32⟩
  | 43 => ⟨S1024x128, .i32⟩
  | 44 => ⟨S1024x128, .i32⟩
  | 45 => ⟨S1024x128, .i32⟩
  | 46 => ⟨S1024x128x1, .i32⟩
  | 47 => ⟨S1024x128x256, .f32⟩
  | 48 => ⟨S1024x128x128, .f32⟩
  | 49 => ⟨S_, .f32⟩
  | 50 => ⟨S1024x128x128, .f32⟩
  | 51 => ⟨S1024x128x128, .f32⟩
  | 52 => ⟨S1024x128x128, .f32⟩
  | 53 => ⟨S_, .f32⟩
  | 54 => ⟨S1024x128, .f32⟩
  | 55 => ⟨S_, .f32⟩
  | 56 => ⟨S1024x128, .f32⟩
  | 57 => ⟨S1024x128, .f32⟩
  | 58 => ⟨S1024x128x1, .f32⟩
  | 59 => ⟨S1024x128x128, .f32⟩
  | 60 => ⟨S1024x128x128, .f32⟩
  | 61 => ⟨S1024x128x128, .f32⟩
  | 62 => ⟨S_, .f32⟩
  | 63 => ⟨S1024x128, .f32⟩
  | 64 => ⟨S1024x128x1, .f32⟩
  | 65 => ⟨S1024x128x128, .f32⟩
  | 66 => ⟨S1024x128x128, .f32⟩
  | 67 => ⟨S1024x128x128, .f32⟩
  | 68 => ⟨S1024x128x128, .f32⟩
  | 69 => ⟨S1024x128x128, .f32⟩
  | 70 => ⟨S_, .f32⟩
  | 71 => ⟨S1024x128, .f32⟩
  | 72 => ⟨S1024x128, .f32⟩
  | 73 => ⟨S_, .f32⟩
  | 74 => ⟨S1024, .f32⟩
  | 75 => ⟨S_, .f32⟩
  | 76 => ⟨S1024, .f32⟩
  | 77 => ⟨S1024, .f32⟩
  | 78 => ⟨S_, .i32⟩
  | 79 => ⟨S1024x128, .i32⟩
  | 80 => ⟨S1024x128, .i1⟩
  | 81 => ⟨S_, .i32⟩
  | 82 => ⟨S1024x128, .i32⟩
  | 83 => ⟨S1024x128, .i32⟩
  | 84 => ⟨S1024x128, .i32⟩
  | 85 => ⟨S1024x128x1, .i32⟩
  | 86 => ⟨S1024x128x256, .f32⟩
  | 87 => ⟨S_, .f32⟩
  | 88 => ⟨S1024x256, .f32⟩
  | 89 => ⟨S_, .f32⟩
  | 90 => ⟨S1024x256, .f32⟩
  | 91 => ⟨S1024x256, .f32⟩
  | 92 => ⟨S_, .i32⟩
  | 93 => ⟨S1024x128, .i32⟩
  | 94 => ⟨S1024x128, .i1⟩
  | 95 => ⟨S_, .i32⟩
  | 96 => ⟨S1024x128, .i32⟩
  | 97 => ⟨S1024x128, .i32⟩
  | 98 => ⟨S1024x128, .i32⟩
  | 99 => ⟨S1024x128x1, .i32⟩
  | 100 => ⟨S1024x128x256, .f32⟩
  | 101 => ⟨S_, .f32⟩
  | 102 => ⟨S1024x256, .f32⟩
  | 103 => ⟨S_, .f32⟩
  | 104 => ⟨S1024x256, .f32⟩
  | 105 => ⟨S1024x256, .f32⟩
  | 106 => ⟨S1024x256, .f32⟩
  | 107 => ⟨S1024x256, .f32⟩
  | 108 => ⟨S_, .f32⟩
  | 109 => ⟨S1024, .f32⟩
  | 110 => ⟨S1024, .f32⟩
  | 111 => ⟨S_, .f32⟩
  | 112 => ⟨S1024, .f32⟩
  | 113 => ⟨S1024, .f32⟩
  | 114 => ⟨S1024, .f32⟩
  | 115 => ⟨S_, .f32⟩
  | 116 => ⟨S_, .f32⟩
  | 117 => ⟨S1024, .f32⟩
  | 118 => ⟨S1024, .f32⟩
  | 119 => ⟨S_, .f32⟩
  | 120 => ⟨S_, .f32⟩
  | 121 => ⟨S_, .f32⟩
  | 122 => ⟨S_, .f32⟩
  | 123 => ⟨S_, .f32⟩
  | 124 => ⟨S1024, .f32⟩
  | 125 => ⟨S1024, .f32⟩
  | 126 => ⟨S1024, .f32⟩
  | 127 => ⟨S_, .f32⟩
  | _ => ⟨S100000x256, .f32⟩

abbrev hbmTy0_1 (i : Nat) : BufTy := match i % 128 with
  | 0 => ⟨S_, .f32⟩
  | 1 => ⟨S_, .f32⟩
  | 2 => ⟨S1024, .f32⟩
  | 3 => ⟨S1024, .f32⟩
  | 4 => ⟨S_, .f32⟩
  | 5 => ⟨S1024, .f32⟩
  | 6 => ⟨S1024, .f32⟩
  | 7 => ⟨S1024, .f32⟩
  | 8 => ⟨S1024, .f32⟩
  | 9 => ⟨S_, .f32⟩
  | 10 => ⟨S1024, .f32⟩
  | 11 => ⟨S1024, .f32⟩
  | 12 => ⟨S1024, .f32⟩
  | 13 => ⟨S1024, .f32⟩
  | 14 => ⟨S1024, .f32⟩
  | 15 => ⟨S1024, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_cst : Ref sig .tc := ⟨.hbm, 18, rfl⟩
abbrev main_call1_v1 : Ref sig .tc := ⟨.hbm, 19, rfl⟩
abbrev main_call1_v2 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call2_v0 : Ref sig .tc := ⟨.hbm, 29, rfl⟩
abbrev main_call2_cst : Ref sig .tc := ⟨.hbm, 30, rfl⟩
abbrev main_call2_v1 : Ref sig .tc := ⟨.hbm, 31, rfl⟩
abbrev main_call2_v2 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_2 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_4 : Ref sig .tc := ⟨.hbm, 53, rfl⟩
abbrev main_v28 : Ref sig .tc := ⟨.hbm, 54, rfl⟩
abbrev main_cst_5 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_cst_9 : Ref sig .tc := ⟨.hbm, 75, rfl⟩
abbrev main_v45 : Ref sig .tc := ⟨.hbm, 76, rfl⟩
abbrev main_v46 : Ref sig .tc := ⟨.hbm, 77, rfl⟩
abbrev main_c_10 : Ref sig .tc := ⟨.hbm, 78, rfl⟩
abbrev main_v47 : Ref sig .tc := ⟨.hbm, 79, rfl⟩
abbrev main_v48 : Ref sig .tc := ⟨.hbm, 80, rfl⟩
abbrev main_c_11 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_12 : Ref sig .tc := ⟨.hbm, 87, rfl⟩
abbrev main_v54 : Ref sig .tc := ⟨.hbm, 88, rfl⟩
abbrev main_cst_13 : Ref sig .tc := ⟨.hbm, 89, rfl⟩
abbrev main_v55 : Ref sig .tc := ⟨.hbm, 90, rfl⟩
abbrev main_v56 : Ref sig .tc := ⟨.hbm, 91, rfl⟩
abbrev main_c_14 : Ref sig .tc := ⟨.hbm, 92, rfl⟩
abbrev main_v57 : Ref sig .tc := ⟨.hbm, 93, rfl⟩
abbrev main_v58 : Ref sig .tc := ⟨.hbm, 94, rfl⟩
abbrev main_c_15 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_16 : Ref sig .tc := ⟨.hbm, 101, rfl⟩
abbrev main_v64 : Ref sig .tc := ⟨.hbm, 102, rfl⟩
abbrev main_cst_17 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_call3_v0 : Ref sig .tc := ⟨.hbm, 107, rfl⟩
abbrev main_call3_cst : Ref sig .tc := ⟨.hbm, 108, rfl⟩
abbrev main_call3_v1 : Ref sig .tc := ⟨.hbm, 109, rfl⟩
abbrev main_v68 : Ref sig .tc := ⟨.hbm, 110, rfl⟩
abbrev main_cst_18 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_19 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_20 : Ref sig .tc := ⟨.hbm, 119, rfl⟩
abbrev main_v75 : Ref sig .tc := ⟨.hbm, 120, rfl⟩
abbrev main_cst_21 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_22 : Ref sig .tc := ⟨.hbm, 127, rfl⟩
abbrev main_cst_23 : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_cst_24 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_cst_25 : Ref sig .tc := ⟨.hbm, 144, rfl⟩
abbrev main_v90 : Ref sig .tc := ⟨.hbm, 145, rfl⟩
abbrev main_cst_26 : Ref sig .tc := ⟨.hbm, 146, rfl⟩
abbrev main_v91 : Ref sig .tc := ⟨.hbm, 147, rfl⟩
abbrev main_v92 : Ref sig .tc := ⟨.hbm, 148, rfl⟩
abbrev main_cst_27 : Ref sig .tc := ⟨.hbm, 149, rfl⟩
abbrev main_v93 : Ref sig .tc := ⟨.hbm, 150, rfl⟩

abbrev nD : Nat := 1
abbrev τ : Topo := Topo.v7x

variable {F : FTy → Type} [FloatOps F]

class Facts₀ : Prop where
  reducesTo_S100000x256_S100000_d1 : S100000x256.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  bcast_S1x256_S100000x256_0_1 : S1x256.BroadcastsInDim S100000x256 (![0, 1] : Fin 2 → Fin S100000x256.rank)
  bcast_S_S1024x128 : S_.BroadcastsInDim S1024x128 (![] : Fin 0 → Fin S1024x128.rank)
  bcast_S1024x128_S1024x128x1_0_1 : S1024x128.BroadcastsInDim S1024x128x1 (![0, 1] : Fin 2 → Fin S1024x128x1.rank)
  bcast_S_S1024x128x128 : S_.BroadcastsInDim S1024x128x128 (![] : Fin 0 → Fin S1024x128x128.rank)
  reducesTo_S1024x128x128_S1024x128_d2 : S1024x128x128.ReducesTo [2] S1024x128
  bcast_S1024x128x1_S1024x128x128_0_1_2 : S1024x128x1.BroadcastsInDim S1024x128x128 (![0, 1, 2] : Fin 3 → Fin S1024x128x128.rank)
  reducesTo_S1024x128_S1024_d1 : S1024x128.ReducesTo [1] S1024
  bcast_S_S1024 : S_.BroadcastsInDim S1024 (![] : Fin 0 → Fin S1024.rank)
  reducesTo_S1024x128x256_S1024x256_d1 : S1024x128x256.ReducesTo [1] S1024x256
  bcast_S_S1024x256 : S_.BroadcastsInDim S1024x256 (![] : Fin 0 → Fin S1024x256.rank)
  reducesTo_S1024x256_S1024_d1 : S1024x256.ReducesTo [1] S1024
  reducesTo_S1024_S_d0 : S1024.ReducesTo [0] S_
  gather_S100000x256_S1024x128x1_S1024x128x256_2_0_n_n_0_2_1256_wf : GatherDims.WF S100000x256 S1024x128x1 S1024x128x256 [2] [0] [] [0] [] 2 ![1, 256]
  dot_S1024x128x256_S1024x128x256_S1024x128x128_2_2_1_1_0_0_wf : DotDims.WF S1024x128x256 S1024x128x256 S1024x128x128 [2] [2] [1] [1] [0] [0]

variable [Facts₀]

def gather_S100000x256_S1024x128x1_S1024x128x256_2_0_n_n_0_2_1256 : GatherDims S100000x256 S1024x128x1 S1024x128x256 where
  offsetDims := [2]
  collapsedSliceDims := [0]
  operandBatchingDims := []
  startIndicesBatchingDims := []
  startIndexMap := [0]
  indexVectorDim := 2
  sliceSizes := ![1, 256]
  wf := gather_S100000x256_S1024x128x1_S1024x128x256_2_0_n_n_0_2_1256_wf
def dot_S1024x128x256_S1024x128x256_S1024x128x128_2_2_1_1_0_0 : DotDims S1024x128x256 S1024x128x256 S1024x128x128 where
  lhsContracting := [2]
  rhsContracting := [2]
  lhsNonContracting := [1]
  rhsNonContracting := [1]
  lhsBatch := [0]
  rhsBatch := [0]
  wf := dot_S1024x128x256_S1024x128x256_S1024x128x128_2_2_1_1_0_0_wf

class Facts : Prop extends Facts₀ where

variable [Facts]
-- ==== Proof.Score.lean ====
/-
  The score of one ego-subgraph, as one function of the rows it reads.

  For a subgraph with 128 nodes, let F and E be the 128 × 256 matrices of the nodes' feature rows and text-embedding
  rows, v the virtual node's row, g the 128 × 128 Gumbel noise and a the 128 × 128 adjacency (as reals).  Write
  u(X) for X with every row divided by max(‖row‖₂, ε).  Then
      T      = u(u(E) − v)                                   (v subtracted from every row)
      z      = T·Tᵀ − 1/2 + g
      p      = the row softmax of z, shifted by max(−∞, row maximum)
      s_diff = (Σ_k ‖a_k − p_k‖₂) / 128
      f_diff = ‖ (Σ_k u(F)_k)/128 − (Σ_k u(E)_k)/128 ‖₂
      score  = s_diff + 1 · f_diff.
  Every operation is the exact one on the extended reals; the float literals are kept as their words.
-/
import Idealize.ShloMosaic.PureOps.Ideal
import Idealize.ShloMosaic.Lib.ValueIdx

noncomputable section

namespace PGScore

open Idealize.ShloMosaic
open scoped BigOperators

/-- ε = f32(1e-12), the floor under a row norm. -/
abbrev eps : EReal := Ideal.ofBits .f32 0x2B8CBCCC#32
/-- 1/2, the similarity threshold. -/
abbrev half : EReal := Ideal.ofBits .f32 0x3F000000#32
/-- 128, the number of nodes of a subgraph. -/
abbrev c128 : EReal := Ideal.ofBits .f32 0x43000000#32
/-- 1, the weight of the feature term. -/
abbrev one : EReal := Ideal.ofBits .f32 0x3F800000#32
/-- −∞, the start of a row maximum. -/
abbrev negInf : EReal := Ideal.ofBits .f32 0xFF800000#32

/-- Row k of X divided by max(‖row k‖₂, ε), at column d. -/
def unit {n : ℕ} (X : Fin n → Fin 256 → EReal) (k : Fin n) (d : Fin 256) : EReal :=
  Ideal.div (X k d) (max (Ideal.sqrt (∑ e : Fin 256, X k e * X k e)) eps)

/-- The doubly normalised, shifted text rows T = u(u(E) − v). -/
def shifted {n : ℕ} (E : Fin n → Fin 256 → EReal) (v : Fin 256 → EReal) : Fin n → Fin 256 → EReal :=
  unit fun k d => unit E k d - v d

/-- z = T·Tᵀ − 1/2 + g. -/
def logits (E : Fin 128 → Fin 256 → EReal) (v : Fin 256 → EReal) (g : Fin 128 → Fin 128 → EReal) (k j : Fin 128) : EReal :=
  (∑ d : Fin 256, shifted E v k d * shifted E v j d) - half + g k j

/-- The maximum of row k, folded from −∞. -/
def rowMax (z : Fin 128 → Fin 128 → EReal) (k : Fin 128) : EReal :=
  (Finset.univ : Finset (Fin 128)).fold max negInf fun j => z k j

/-- The shifted exponentials, the shift being max(−∞, mx k). -/
def expo (z : Fin 128 → Fin 128 → EReal) (mx : Fin 128 → EReal) (k j : Fin 128) : EReal :=
  Ideal.exp (z k j - max negInf (mx k))

/-- The row softmax. -/
def soft (z : Fin 128 → Fin 128 → EReal) (mx : Fin 128 → EReal) (k j : Fin 128) : EReal :=
  Ideal.div (expo z mx k j) (∑ l : Fin 128, expo z mx k l)

/-- s_diff: the mean over rows of ‖a_k − p_k‖₂. -/
def sDiff (z : Fin 128 → Fin 128 → EReal) (mx : Fin 128 → EReal) (a : Fin 128 → Fin 128 → EReal) : EReal :=
  Ideal.div (∑ k : Fin 128, Ideal.sqrt (∑ j : Fin 128, (a k j - soft z mx k j) * (a k j - soft z mx k j))) c128

/-- The mean over the 128 rows of U, at column d. -/
def meanRow (U : Fin 128 → Fin 256 → EReal) (d : Fin 256) : EReal := Ideal.div (∑ k : Fin 128, U k d) c128

/-- f_diff: the norm of the difference of the two mean rows. -/
def fDiff (U1 U2 : Fin 128 → Fin 256 → EReal) : EReal :=
  Ideal.sqrt (∑ d : Fin 256, (meanRow U1 d - meanRow U2 d) * (meanRow U1 d - meanRow U2 d))

/-- The score from the normalised rows U1, U2, the logits z, their row maxima mx and the adjacency a. -/
def scoreOf (U1 U2 : Fin 128 → Fin 256 → EReal) (z : Fin 128 → Fin 128 → EReal) (mx : Fin 128 → EReal)
    (a : Fin 128 → Fin 128 → EReal) : EReal :=
  sDiff z mx a + one * fDiff U1 U2

/-- The score of the subgraph. -/
def score (F E : Fin 128 → Fin 256 → EReal) (v : Fin 256 → EReal) (g a : Fin 128 → Fin 128 → EReal) : EReal :=
  scoreOf (unit F) (unit E) (logits E v g) (rowMax (logits E v g)) a

end PGScore

end
-- ==== Proof.LibOuter3.lean ====
/-
  Rank-3 "outer product" layouts read at an index.

  A kernel that forms an [a, b, c] tensor from a length-c vector, an [a, b] matrix and a [b, c] matrix does it by adding
  unit axes and broadcasting: the vector as [1, 1, c], the first matrix as [a, b, 1], the second as [1, b, c].  Each of
  these reads, at (r, k, l), one entry of its operand; and the sum of an [a, b, c] tensor along its middle axis reads, at
  (r, l), the sum over k of the entries (r, k, l).  All indices are written by coordinates.
-/
import Idealize.ShloMosaic.Lib.ValueIdx
import Idealize.ShloMosaic.Lib.Pipeline.Value
import Idealize.ShloMosaic.PureOps.Ideal.Laws

noncomputable section

namespace Outer3

open Idealize.ShloMosaic Idealize.ShloMosaic.ValueIdx
open scoped BigOperators

variable {α : Type}

/-- A length-c vector cast to [1, 1, c] reads, at (u, v, l), the vector at l. -/
theorem shapeCast_c_11c_apply {c : ℕ} (x : (⟨1, ![c]⟩ : Shape).Idx → α)
    (h : (⟨1, ![c]⟩ : Shape).ShapeCasts ⟨3, ![1, 1, c]⟩) (u v : Fin 1) (l : Fin c) :
    shapeCast ⟨3, ![1, 1, c]⟩ x h (ix3 u v l) = x (ix1 l) :=
  shapeCast_apply x h _ _ (by
    have hu : u.val = 0 := by omega
    have hv : v.val = 0 := by omega
    rw [Shape.rowMajor_val_three, Shape.rowMajor_val_one]
    show l.val = (u.val * 1 + v.val) * c + l.val
    rw [hu, hv]; simp)

/-- An [a, b] matrix cast to [a, b, 1] reads, at (r, k, u), the matrix at (r, k). -/
theorem shapeCast_ab_ab1_apply {a b : ℕ} (x : (⟨2, ![a, b]⟩ : Shape).Idx → α)
    (h : (⟨2, ![a, b]⟩ : Shape).ShapeCasts ⟨3, ![a, b, 1]⟩) (r : Fin a) (k : Fin b) (u : Fin 1) :
    shapeCast ⟨3, ![a, b, 1]⟩ x h (ix3 r k u) = x (ix2 r k) :=
  shapeCast_apply x h _ _ (by
    have hu : u.val = 0 := by omega
    rw [Shape.rowMajor_val_three, Shape.rowMajor_val_two]
    show r.val * b + k.val = (r.val * b + k.val) * 1 + u.val
    rw [hu, Nat.mul_one, Nat.add_zero])

/-- A [1, 1, c] array broadcast to [a, b, c] reads, at (r, k, l), its one fibre at l. -/
theorem broadcastTo_11c_abc_apply {a b c : ℕ} (v : (⟨3, ![1, 1, c]⟩ : Shape).Idx → α)
    (h : (⟨3, ![1, 1, c]⟩ : Shape).Broadcasts ⟨3, ![a, b, c]⟩) (r : Fin a) (k : Fin b) (l : Fin c) :
    broadcastTo ⟨3, ![a, b, c]⟩ v h (ix3 r k l) = v (ix3 (0 : Fin 1) (0 : Fin 1) l) := by
  refine broadcastTo_apply v h (ix3 r k l) (ix3 (0 : Fin 1) (0 : Fin 1) l) fun ax => ?_
  match ax with
  | ⟨0, _⟩ => rfl
  | ⟨1, _⟩ => rfl
  | ⟨2, _⟩ =>
    show l.val = if c = 1 then 0 else l.val
    split
    · have := l.isLt; omega
    · rfl

/-- An [a, b, 1] array broadcast to [a, b, c] reads, at (r, k, l), its entry (r, k). -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (k : Fin b) (l : Fin c) :
    broadcastTo ⟨3, ![a, b, c]⟩ v h (ix3 r k l) = v (ix3 r k (0 : Fin 1)) := by
  refine broadcastTo_apply v h (ix3 r k l) (ix3 r k (0 : Fin 1)) fun ax => ?_
  match ax with
  | ⟨0, _⟩ =>
    show r.val = if a = 1 then 0 else r.val
    split
    · have := r.isLt; omega
    · rfl
  | ⟨1, _⟩ =>
    show k.val = if b = 1 then 0 else k.val
    split
    · have := k.isLt; omega
    · rfl
  | ⟨2, _⟩ => rfl

/-- A [1, b, c] array broadcast to [a, b, c] reads, at (r, k, l), its entry (k, l). -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (k : Fin b) (l : Fin c) :
    broadcastTo ⟨3, ![a, b, c]⟩ v h (ix3 r k l) = v (ix3 (0 : Fin 1) k l) := by
  refine broadcastTo_apply v h (ix3 r k l) (ix3 (0 : Fin 1) k l) fun ax => ?_
  match ax with
  | ⟨0, _⟩ => rfl
  | ⟨1, _⟩ =>
    show k.val = if b = 1 then 0 else k.val
    split
    · have := k.isLt; omega
    · rfl
  | ⟨2, _⟩ =>
    show l.val = if c = 1 then 0 else l.val
    split
    · have := l.isLt; omega
    · rfl

/-- The sum of an [a, b, c] tensor of extended reals along its middle axis reads, at (r, l), the sum over k of the
    entries (r, k, l). -/
theorem multiReduction_add_mid_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.add.neutral φ hφ) (r : Fin a) (l : Fin c) :
    multiReduction .add [1] ⟨2, ![a, c]⟩ src acc h hφ hacc (ix2 r l) = ∑ k : Fin b, src (ix3 r k l) := by
  refine (Ideal.multiReduction_add_single src acc h hφ hacc (ix2 r l)).trans ?_
  refine Finset.sum_congr rfl fun k _ => congrArg src (funext fun ax => Fin.ext ?_)
  match ax with
  | ⟨0, _⟩ => rfl
  | ⟨1, _⟩ => rfl
  | ⟨2, _⟩ => rfl

end Outer3

end
-- ==== Proof.LibLastAxis3.lean ====
/-
  Reductions of a rank-3 array along its LAST axis, and one more unit-axis cast, read at an index.

  For an [a, b, c] array of extended reals:
    • its sum along the last axis reads, at (r, k), the sum over l of the entries (r, k, l);
    • its maximum along the last axis (lane reduction from an accumulator word, or the host's reduce from an initial
      value) reads, at (r, k), the fold of `max` from that start over the entries (r, k, l);
    • the host's sum along the last axis reads, at (r, k), the initial value plus the same sum.
  A [1, c] row cast to [1, 1, c] reads, at (u, v, l), the row at (0, l).
-/
import Idealize.ShloMosaic.Lib.ValueIdx
import Idealize.ShloMosaic.Lib.Pipeline.Value
import Idealize.ShloMosaic.PureOps.Ideal.Laws
import Idealize.ShloMosaic.PureOps.Reduce

noncomputable section

namespace LastAxis3

open Idealize.ShloMosaic Idealize.ShloMosaic.ValueIdx
open scoped BigOperators

variable {α : Type}

/-- Over result index (r, k), the source index with l inserted on the last axis is (r, k, l). -/
theorem lift_last {a b c : ℕ} (h : (⟨3, ![a, b, c]⟩ : Shape).Reduces [(2 : Fin 3)] ⟨2, ![a, b]⟩) (r : Fin a) (k : Fin b)
    (l : Fin c) : h.lift (ix2 r k) l = ix3 r k l := by
  funext ax; refine Fin.ext ?_
  match ax with
  | ⟨0, _⟩ => rfl
  | ⟨1, _⟩ => rfl
  | ⟨2, _⟩ => rfl

/-- The lane sum of an [a, b, c] array along its last axis, at (r, k). -/
theorem sum_last_apply {a b c : ℕ} {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (r : Fin a) (k : Fin b) :
    multiReduction .add [(2 : Fin 3)] ⟨2, ![a, b]⟩ src acc h hφ hacc (ix2 r k) = ∑ l : Fin c, src (ix3 r k l) :=
  (Ideal.multiReduction_add_single src acc h hφ hacc (ix2 r k)).trans
    (Finset.sum_congr rfl fun l _ => congrArg src (lift_last h r k l))

/-- The lane maximum of an [a, b, c] array along its last axis, at (r, k): the fold of `max` from the accumulator. -/
theorem max_last_apply {a b c : ℕ} {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (r : Fin a) (k : Fin b) :
    multiReduction .maximumf [(2 : Fin 3)] ⟨2, ![a, b]⟩ src acc h hφ hacc (ix2 r k)
      = (Finset.univ : Finset (Fin c)).fold max (Ideal.ofBits φ acc) (fun l => src (ix3 r k l)) := by
  refine (Ideal.multiReduction_maximumf_single src acc h hφ hacc (ix2 r k)).trans ?_
  refine congrArg (fun f => (Finset.univ : Finset (Fin c)).fold max (Ideal.ofBits φ acc) f) ?_
  funext l
  exact congrArg src (lift_last h r k l)

/-- The host's maximum of an [a, b, c] array along its last axis, at (r, k): the fold of `max` from the initial value. -/
theorem hostMax_last_apply {a b c : ℕ} {φ : FTy} {u : Shape} (x : FVec Ideal ⟨3, ![a, b, c]⟩ φ) (init : FVec Ideal u φ)
    (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < u.numel) (r : Fin a) (k : Fin b) :
    Host.reduce (FloatOps.maximumf (F := Ideal) (φ := φ)) x init h' hu (ix2 r k)
      = (Finset.univ : Finset (Fin c)).fold max (init (Shape.Idx.first hu)) (fun l => x (ix3 r k l)) := by
  refine (Host.reduce_eq_fold_single (FloatOps.maximumf (F := Ideal) (φ := φ)) x init h' h hu (ix2 r k)).trans ?_
  refine congrArg (fun f => (Finset.univ : Finset (Fin c)).fold max (init (Shape.Idx.first hu)) f) ?_
  funext l
  exact congrArg x (lift_last h r k l)

/-- A [1, c] row cast to [1, 1, c] reads, at (u, v, l), the row at (0, l). -/
theorem shapeCast_1c_11c_apply {c : ℕ} (x : (⟨2, ![1, c]⟩ : Shape).Idx → α)
    (h : (⟨2, ![1, c]⟩ : Shape).ShapeCasts ⟨3, ![1, 1, c]⟩) (u v : Fin 1) (l : Fin c) :
    shapeCast ⟨3, ![1, 1, c]⟩ x h (ix3 u v l) = x (ix2 (0 : Fin 1) l) :=
  shapeCast_apply x h _ _ (by
    have hu : u.val = 0 := by omega
    have hv : v.val = 0 := by omega
    rw [Shape.rowMajor_val_three, Shape.rowMajor_val_two]
    show 0 * c + l.val = (u.val * 1 + v.val) * c + l.val
    rw [hu, hv])

end LastAxis3

end
-- ==== Proof.RowUnit.lean ====
/-
  Rows divided by their floored norms, for a rank-3 block and for a matrix, read at an index.

  The kernel normalises every row of an [a, b, 256] block: it squares, sums along the last axis, takes the root, floors it
  at ε, spreads the [a, b, 1] column back over the rows and divides.  At (p, k, d) the result is the (p, k) row's entry d
  over max(‖row‖₂, ε): the function `PGScore.unit` of the p-th slice.
-/
import proofs.«149562_j63831803953155_1_alg».proof.Proof.Score
import proofs.«149562_j63831803953155_1_alg».proof.Proof.LibOuter3
import proofs.«149562_j63831803953155_1_alg».proof.Proof.LibLastAxis3

noncomputable section

namespace RowUnit

open Idealize.ShloMosaic Idealize.ShloMosaic.ValueIdx
open scoped BigOperators

/-- A scalar literal at the extended reals is its word's value. -/
theorem scalar_ofBits (w : BitVec 32) : (Scalar.ofBits (F := Ideal) .f32 w : EReal) = Ideal.ofBits .f32 w := rfl

/-- The floored norm column of a block, at (p, k, ·): max(√(Σ_e x[p,k,e]²), ε). -/
theorem normCol_apply {a b : ℕ} (x : FVec Ideal ⟨3, ![a, b, 256]⟩ .f32)
    (hr : (⟨3, ![a, b, 256]⟩ : Shape).Reduces [(2 : Fin 3)] ⟨2, ![a, b]⟩) (hφ : FKind.Formats .f32)
    (hacc : (0x00000000#32 : BitVec 32) = FKind.add.neutral .f32 hφ)
    (hc : (⟨2, ![a, b]⟩ : Shape).ShapeCasts ⟨3, ![a, b, 1]⟩) (p : Fin a) (k : Fin b) (u : Fin 1) :
    maximumf (sqrt (shapeCast ⟨3, ![a, b, 1]⟩ (multiReduction .add [(2 : Fin 3)] ⟨2, ![a, b]⟩ (mulf x x) 0x00000000#32 hr hφ hacc) hc))
        (broadcast ⟨3, ![a, b, 1]⟩ (Scalar.ofBits .f32 0x2B8CBCCC#32)) (ix3 p k u)
      = max (Ideal.sqrt (∑ e : Fin 256, x (ix3 p k e) * x (ix3 p k e))) PGScore.eps := by
  show max (Ideal.sqrt (shapeCast ⟨3, ![a, b, 1]⟩ (multiReduction .add [(2 : Fin 3)] ⟨2, ![a, b]⟩ (mulf x x) 0x00000000#32 hr hφ hacc) hc (ix3 p k u))) _ = _
  rw [Outer3.shapeCast_ab_ab1_apply, LastAxis3.sum_last_apply]
  rfl

/-- The block with every row divided by its floored norm, at (p, k, d). -/
theorem unit3_apply {a b : ℕ} (x : FVec Ideal ⟨3, ![a, b, 256]⟩ .f32)
    (hr : (⟨3, ![a, b, 256]⟩ : Shape).Reduces [(2 : Fin 3)] ⟨2, ![a, b]⟩) (hφ : FKind.Formats .f32)
    (hacc : (0x00000000#32 : BitVec 32) = FKind.add.neutral .f32 hφ)
    (hc : (⟨2, ![a, b]⟩ : Shape).ShapeCasts ⟨3, ![a, b, 1]⟩)
    (hb : (⟨3, ![a, b, 1]⟩ : Shape).Broadcasts ⟨3, ![a, b, 256]⟩) (p : Fin a) (k : Fin b) (d : Fin 256) :
    divf x (broadcastTo ⟨3, ![a, b, 256]⟩
        (maximumf (sqrt (shapeCast ⟨3, ![a, b, 1]⟩ (multiReduction .add [(2 : Fin 3)] ⟨2, ![a, b]⟩ (mulf x x) 0x00000000#32 hr hφ hacc) hc))
          (broadcast ⟨3, ![a, b, 1]⟩ (Scalar.ofBits .f32 0x2B8CBCCC#32))) hb) (ix3 p k d)
      = PGScore.unit (fun k d => x (ix3 p k d)) k d := by
  show Ideal.div (x (ix3 p k d)) (broadcastTo ⟨3, ![a, b, 256]⟩ _ hb (ix3 p k d)) = _
  rw [Outer3.broadcastTo_ab1_abc_apply, normCol_apply]
  rfl

end RowUnit

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.KernelPay.lean ====
/-
  The kernel body's values at an index: what one grid point computes from its five input blocks.

  The body works on 16 subgraphs at once (blocks [16, 128, 256] of feature and text rows, [16, 128, 128] of noise and
  adjacency, the virtual row [1, 256]).  Slice p of its result is `PGScore.score` of slice p of the blocks: the row
  normalisations, the batched product T·Tᵀ (a sum over the 256 columns), the shifted softmax, the two norms and the means
  are each read at an index, subgraph by subgraph.
-/
import proofs.«149562_j63831803953155_1_alg».proof.Proof.Gen.KernelIdeal.Skeleton
import proofs.«149562_j63831803953155_1_alg».proof.Proof.RowUnit
import proofs.«149562_j63831803953155_1_alg».proof.Proof.LibKeepdims
import Idealize.ShloMosaic.PureOps.Ideal.Laws

set_option maxRecDepth 16384

noncomputable section

namespace Cert.KernelIdeal.Pay

open Cert.KernelIdeal Cert.KernelIdeal.Gen Idealize.ShloMosaic Idealize.ShloMosaic.ValueIdx
open scoped BigOperators

/-- Slice p of a [16, 128, 256] block as a 128 × 256 matrix. -/
abbrev rows (x : Vec Ideal S16x128x256 .f32) (p : Fin 16) : Fin 128 → Fin 256 → EReal := fun k d => x (ix3 p k d)
/-- Slice p of a [16, 128, 128] block as a 128 × 128 matrix. -/
abbrev sq (x : Vec Ideal S16x128x128 .f32) (p : Fin 16) : Fin 128 → Fin 128 → EReal := fun k j => x (ix3 p k j)
/-- The virtual row. -/
abbrev vrow (x : Vec Ideal S1x256 .f32) : Fin 256 → EReal := fun d => x (ix2 (0 : Fin 1) d)
/-- Slice p of the integer adjacency block, as reals. -/
abbrev adj (x : Vec Ideal S16x128x128 .i32) (p : Fin 16) : Fin 128 → Fin 128 → EReal :=
  fun k j => FloatOps.sitofp (F := Ideal) .f32 (x (ix3 p k j))

/-- The normalised feature rows. -/
theorem pay2_apply (x0 : Vec Ideal S16x128x256 .f32) (p : Fin 16) (k : Fin 128) (d : Fin 256) :
    k0_pay2 x0 (ix3 p k d) = PGScore.unit (rows x0 p) k d := by
  unfold k0_pay2
  rw [shapeCast_self]
  exact RowUnit.unit3_apply x0 _ _ _ _ _ p k d

/-- The normalised text rows. -/
theorem pay3_apply (x1 : Vec Ideal S16x128x256 .f32) (p : Fin 16) (k : Fin 128) (d : Fin 256) :
    k0_pay3 x1 (ix3 p k d) = PGScore.unit (rows x1 p) k d := by
  unfold k0_pay3
  rw [shapeCast_self]
  exact RowUnit.unit3_apply x1 _ _ _ _ _ p k d

/-! ## The batched product T·Tᵀ -/

theorem lhs0 (i : S16x128x128.Idx) (q : dot_S16x128x256_S16x128x256_S16x128x128_2_2_1_1_0_0.contr.Idx) :
    (dot_S16x128x256_S16x128x256_S16x128x128_2_2_1_1_0_0.lhsIdx i q 0).val = (i 0).val := by
  unfold DotDims.lhsIdx
  rw [dif_pos (show (0 : Fin S16x128x256.rank) ∈ dot_S16x128x256_S16x128x256_S16x128x128_2_2_1_1_0_0.lhsBatch by decide)]
  rfl
theorem lhs1 (i : S16x128x128.Idx) (q : dot_S16x128x256_S16x128x256_S16x128x128_2_2_1_1_0_0.contr.Idx) :
    (dot_S16x128x256_S16x128x256_S16x128x128_2_2_1_1_0_0.lhsIdx i q 1).val = (i 1).val := by
  unfold DotDims.lhsIdx
  rw [dif_neg (show ¬(1 : Fin S16x128x256.rank) ∈ dot_S16x128x256_S16x128x256_S16x128x128_2_2_1_1_0_0.lhsBatch by decide), dif_pos (show (1 : Fin S16x128x256.rank) ∈ dot_S16x128x256_S16x128x256_S16x128x128_2_2_1_1_0_0.lhsNonContracting by decide)]
  rfl
theorem lhs2 (i : S16x128x128.Idx) (q : dot_S16x128x256_S16x128x256_S16x128x128_2_2_1_1_0_0.contr.Idx) :
    (dot_S16x128x256_S16x128x256_S16x128x128_2_2_1_1_0_0.lhsIdx i q 2).val = (q ⟨0, by decide⟩).val :=
  dot_S16x128x256_S16x128x256_S16x128x128_2_2_1_1_0_0.lhsIdx_val_of_single rfl i q
theorem rhs0 (i : S16x128x128.Idx) (q : dot_S16x128x256_S16x128x256_S16x128x128_2_2_1_1_0_0.contr.Idx) :
    (dot_S16x128x256_S16x128x256_S16x128x128_2_2_1_1_0_0.rhsIdx i q 0).val = (i 0).val := by
  unfold DotDims.rhsIdx
  rw [dif_pos (show (0 : Fin S16x128x256.rank) ∈ dot_S16x128x256_S16x128x256_S16x128x128_2_2_1_1_0_0.rhsBatch by decide)]
  rfl
theorem rhs1 (i : S16x128x128.Idx) (q : dot_S16x128x256_S16x128x256_S16x128x128_2_2_1_1_0_0.contr.Idx) :
    (dot_S16x128x256_S16x128x256_S16x128x128_2_2_1_1_0_0.rhsIdx i q 1).val = (i 2).val := by
  unfold DotDims.rhsIdx
  rw [dif_neg (show ¬(1 : Fin S16x128x256.rank) ∈ dot_S16x128x256_S16x128x256_S16x128x128_2_2_1_1_0_0.rhsBatch by decide), dif_pos (show (1 : Fin S16x128x256.rank) ∈ dot_S16x128x256_S16x128x256_S16x128x128_2_2_1_1_0_0.rhsNonContracting by decide)]
  rfl
theorem rhs2 (i : S16x128x128.Idx) (q : dot_S16x128x256_S16x128x256_S16x128x128_2_2_1_1_0_0.contr.Idx) :
    (dot_S16x128x256_S16x128x256_S16x128x128_2_2_1_1_0_0.rhsIdx i q 2).val = (q ⟨0, by decide⟩).val :=
  dot_S16x128x256_S16x128x256_S16x128x128_2_2_1_1_0_0.rhsIdx_val_of_single rfl i q

/-- The batched product of a block with itself, contracted along the columns, into a zero accumulator: at (p, k, j) the
    sum over the 256 columns of row (p, k) times row (p, j). -/
theorem gram_apply {φ : FTy} (y : FVec Ideal S16x128x256 φ) (p : Fin 16) (k j : Fin 128) :
    matmul dot_S16x128x256_S16x128x256_S16x128x128_2_2_1_1_0_0 none y y (constant S16x128x128 .f32 0x00000000#32) (ix3 p k j)
      = ∑ d : Fin 256, y (ix3 p k d) * y (ix3 p j d) := by
  show FloatOps.matmul dot_S16x128x256_S16x128x256_S16x128x128_2_2_1_1_0_0 none y y (constant S16x128x128 .f32 0x00000000#32) (ix3 p k j) = _
  rw [Ideal.matmul_constant_zero_apply, ← Equiv.sum_comp (contrEquiv1 dot_S16x128x256_S16x128x256_S16x128x128_2_2_1_1_0_0 256 rfl rfl).symm]
  refine Finset.sum_congr rfl fun d _ => ?_
  have hd := contrEquiv1_symm_val dot_S16x128x256_S16x128x256_S16x128x128_2_2_1_1_0_0 256 rfl rfl d
  have el : dot_S16x128x256_S16x128x256_S16x128x128_2_2_1_1_0_0.lhsIdx (ix3 p k j) ((contrEquiv1 dot_S16x128x256_S16x128x256_S16x128x128_2_2_1_1_0_0 256 rfl rfl).symm d) = ix3 p k d := funext fun a => Fin.ext (by
    match a with
    | ⟨0, _⟩ => exact lhs0 _ _
    | ⟨1, _⟩ => exact lhs1 _ _
    | ⟨2, _⟩ => exact (lhs2 _ _).trans hd)
  have er : dot_S16x128x256_S16x128x256_S16x128x128_2_2_1_1_0_0.rhsIdx (ix3 p k j) ((contrEquiv1 dot_S16x128x256_S16x128x256_S16x128x128_2_2_1_1_0_0 256 rfl rfl).symm d) = ix3 p j d := funext fun a => Fin.ext (by
    match a with
    | ⟨0, _⟩ => exact rhs0 _ _
    | ⟨1, _⟩ => exact rhs1 _ _
    | ⟨2, _⟩ => exact (rhs2 _ _).trans hd)
  rw [el, er]

/-! ## The logits and their row maxima -/

/-- The text rows, normalised, with the virtual row subtracted. -/
theorem centred_apply (x1 : Vec Ideal S16x128x256 .f32) (x2 : Vec Ideal S1x256 .f32) (p : Fin 16) (k : Fin 128) (d : Fin 256) :
    subf (k0_pay3 x1) (broadcastTo S16x128x256 (shapeCast S1x1x256 x2 shapeCasts_S1x256_S1x1x256) broadcasts_S1x1x256_S16x128x256) (ix3 p k d)
      = PGScore.unit (rows x1 p) k d - vrow x2 d := by
  show k0_pay3 x1 (ix3 p k d) - broadcastTo S16x128x256 (shapeCast S1x1x256 x2 shapeCasts_S1x256_S1x1x256) broadcasts_S1x1x256_S16x128x256 (ix3 p k d) = _
  rw [pay3_apply, Outer3.broadcastTo_11c_abc_apply, LastAxis3.shapeCast_1c_11c_apply]

/-- The logits z = T·Tᵀ − 1/2 + g of slice p. -/
theorem pay4_apply (x1 : Vec Ideal S16x128x256 .f32) (x2 : Vec Ideal S1x256 .f32) (x3 : Vec Ideal S16x128x128 .f32)
    (p : Fin 16) (k j : Fin 128) :
    k0_pay4 x1 x2 x3 (ix3 p k j) = PGScore.logits (rows x1 p) (vrow x2) (sq x3 p) k j := by
  unfold k0_pay4
  dsimp only
  show ((matmul (F := Ideal) dot_S16x128x256_S16x128x256_S16x128x128_2_2_1_1_0_0 none _ _ (constant S16x128x128 .f32 0x00000000#32) (ix3 p k j) : EReal) - PGScore.half) + x3 (ix3 p k j) = _
  rw [gram_apply]
  unfold PGScore.logits
  refine congrArg (fun s => s - PGScore.half + x3 (ix3 p k j)) (Finset.sum_congr rfl fun d _ => ?_)
  have key : ∀ (q : Fin 128), (truncf .bf16 (divf (subf (k0_pay3 x1) (broadcastTo S16x128x256 (shapeCast S1x1x256 x2 shapeCasts_S1x256_S1x1x256) broadcasts_S1x1x256_S16x128x256))
      (broadcastTo S16x128x256 (maximumf (sqrt (shapeCast S16x128x1 (multiReduction .add [2] S16x128
        (mulf (subf (k0_pay3 x1) (broadcastTo S16x128x256 (shapeCast S1x1x256 x2 shapeCasts_S1x256_S1x1x256) broadcasts_S1x1x256_S16x128x256))
          (subf (k0_pay3 x1) (broadcastTo S16x128x256 (shapeCast S1x1x256 x2 shapeCasts_S1x256_S1x1x256) broadcasts_S1x1x256_S16x128x256)))
        0x00000000#32 reduces_S16x128x256_S16x128 (.inl rfl) rfl) shapeCasts_S16x128_S16x128x1))
        (broadcast S16x128x1 (Scalar.ofBits .f32 0x2B8CBCCC#32))) broadcasts_S16x128x1_S16x128x256)) bitsLt_bf16_f32 : FVec Ideal S16x128x256 .bf16) (ix3 p q d)
      = PGScore.shifted (rows x1 p) (vrow x2) q d := by
    intro q
    refine (RowUnit.unit3_apply (subf (k0_pay3 x1) (broadcastTo S16x128x256 (shapeCast S1x1x256 x2 shapeCasts_S1x256_S1x1x256) broadcasts_S1x1x256_S16x128x256)) _ _ _ _ _ p q d).trans ?_
    unfold PGScore.shifted
    refine congrArg (fun X : Fin 128 → Fin 256 → EReal => PGScore.unit X q d) ?_
    funext k' d'
    exact centred_apply x1 x2 p k' d'
  rw [key k, key j]

/-- The row maxima of the logits, folded from −∞. -/
theorem pay5_apply (x1 : Vec Ideal S16x128x256 .f32) (x2 : Vec Ideal S1x256 .f32) (x3 : Vec Ideal S16x128x128 .f32)
    (p : Fin 16) (k : Fin 128) :
    k0_pay5 x1 x2 x3 (ix2 p k) = PGScore.rowMax (PGScore.logits (rows x1 p) (vrow x2) (sq x3 p)) k := by
  unfold k0_pay5
  refine (LastAxis3.max_last_apply (k0_pay4 x1 x2 x3) _ _ _ _ p k).trans ?_
  unfold PGScore.rowMax
  refine congrArg (fun f => (Finset.univ : Finset (Fin 128)).fold max PGScore.negInf f) ?_
  funext j
  exact pay4_apply x1 x2 x3 p k j

/-! ## The softmax, the two norms and the means -/

/-- The shifted exponentials of slice p. -/
theorem expo_apply (v37 : FVec Ideal S16x128x128 .f32) (v38 : FVec Ideal S16x128 .f32) (p : Fin 16) (k l : Fin 128) :
    exp (subf v37 (broadcastTo S16x128x128 (shapeCast S16x128x1 (maximumf (broadcast S16x128 (Scalar.ofBits .f32 0xFF800000#32)) v38)
        shapeCasts_S16x128_S16x128x1) broadcasts_S16x128x1_S16x128x128)) (ix3 p k l)
      = PGScore.expo (sq v37 p) (fun k => v38 (ix2 p k)) k l := by
  show Ideal.exp (v37 (ix3 p k l) - broadcastTo S16x128x128 (shapeCast S16x128x1 (maximumf (broadcast S16x128 (Scalar.ofBits .f32 0xFF800000#32)) v38)
        shapeCasts_S16x128_S16x128x1) broadcasts_S16x128x1_S16x128x128 (ix3 p k l)) = _
  rw [Outer3.broadcastTo_ab1_abc_apply, Outer3.shapeCast_ab_ab1_apply]
  rfl

/-- A [16, 128, 128] block divided by its row sums, at (p, k, j). -/
theorem rowDiv_apply (E : FVec Ideal S16x128x128 .f32) (p : Fin 16) (k j : Fin 128) :
    divf E (broadcastTo S16x128x128 (shapeCast S16x128x1 (multiReduction .add [2] S16x128 E 0x00000000#32 reduces_S16x128x128_S16x128 (.inl rfl) rfl)
        shapeCasts_S16x128_S16x128x1) broadcasts_S16x128x1_S16x128x128) (ix3 p k j)
      = Ideal.div (E (ix3 p k j)) (∑ l : Fin 128, E (ix3 p k l)) := by
  show Ideal.div (E (ix3 p k j)) (broadcastTo S16x128x128 (shapeCast S16x128x1 (multiReduction .add [2] S16x128 E 0x00000000#32 reduces_S16x128x128_S16x128 (.inl rfl) rfl)
        shapeCasts_S16x128_S16x128x1) broadcasts_S16x128x1_S16x128x128 (ix3 p k j)) = _
  rw [Outer3.broadcastTo_ab1_abc_apply, Outer3.shapeCast_ab_ab1_apply]
  exact congrArg (Ideal.div (E (ix3 p k j))) (LastAxis3.sum_last_apply E _ _ _ _ p k)

/-- The mean over the 128 rows of a [16, 128, 256] block, at (p, d). -/
theorem mean_apply (U : FVec Ideal S16x128x256 .f32) (p : Fin 16) (d : Fin 256) :
    divf (multiReduction .add [1] S16x256 U 0x00000000#32 reduces_S16x128x256_S16x256 (.inl rfl) rfl)
        (broadcast S16x256 (Scalar.ofBits .f32 0x43000000#32)) (ix2 p d)
      = PGScore.meanRow (rows U p) d := by
  show Ideal.div (multiReduction .add [1] S16x256 U 0x00000000#32 reduces_S16x128x256_S16x256 (.inl rfl) rfl (ix2 p d)) PGScore.c128 = _
  exact congrArg (fun s => Ideal.div s PGScore.c128) (Outer3.multiReduction_add_mid_apply U _ _ _ _ p d)

/-- What the body stores for slice p: the score from the normalised rows, the logits and their row maxima. -/
theorem pay1_apply (v12 v20 : FVec Ideal S16x128x256 .f32) (v37 : FVec Ideal S16x128x128 .f32) (v38 : FVec Ideal S16x128 .f32)
    (v49 : Vec Ideal S16x128x128 .i32) (p : Fin 16) (u : Fin 1) :
    k0_pay1 v12 v20 v37 v38 v49 (ix2 p u)
      = PGScore.scoreOf (rows v12 p) (rows v20 p) (sq v37 p) (fun k => v38 (ix2 p k)) (adj v49 p) := by
  unfold k0_pay1
  dsimp only
  rw [Cert.Lib.Keepdims.shapeCast_a_a1_apply]
  show Ideal.div (multiReduction (F := Ideal) .add [1] S16 _ 0x00000000#32 reduces_S16x128_S16 (.inl rfl) rfl (ix1 p) : EReal) PGScore.c128
      + PGScore.one * Ideal.sqrt (multiReduction (F := Ideal) .add [1] S16 _ 0x00000000#32 reduces_S16x256_S16 (.inl rfl) rfl (ix1 p) : EReal) = _
  unfold PGScore.scoreOf PGScore.sDiff PGScore.fDiff
  refine congrArg₂ (· + ·)
    (congrArg (fun s => Ideal.div s PGScore.c128) ((Cert.Lib.Keepdims.rowSum_apply _ _ _ _ _ p).trans (Finset.sum_congr rfl fun k _ => ?_)))
    (congrArg (fun s => PGScore.one * Ideal.sqrt s) ((Cert.Lib.Keepdims.rowSum_apply _ _ _ _ _ p).trans (Finset.sum_congr rfl fun d _ => ?_)))
  · show Ideal.sqrt (multiReduction (F := Ideal) .add [2] S16x128 _ 0x00000000#32 reduces_S16x128x128_S16x128 (.inl rfl) rfl (ix2 p k) : EReal) = _
    refine (congrArg Ideal.sqrt (LastAxis3.sum_last_apply _ _ _ _ _ p k)).trans ?_
    refine congrArg Ideal.sqrt (Finset.sum_congr rfl fun j _ => ?_)
    have e : ∀ l, exp (subf v37 (broadcastTo S16x128x128 (shapeCast S16x128x1 (maximumf (broadcast S16x128 (Scalar.ofBits .f32 0xFF800000#32)) v38)
        shapeCasts_S16x128_S16x128x1) broadcasts_S16x128x1_S16x128x128)) (ix3 p k l)
        = PGScore.expo (sq v37 p) (fun k => v38 (ix2 p k)) k l := fun l => expo_apply v37 v38 p k l
    have s : (FloatOps.sitofp (F := Ideal) .f32 (v49 (ix3 p k j)) : EReal)
        - divf (exp (subf v37 (broadcastTo S16x128x128 (shapeCast S16x128x1 (maximumf (broadcast S16x128 (Scalar.ofBits .f32 0xFF800000#32)) v38)
            shapeCasts_S16x128_S16x128x1) broadcasts_S16x128x1_S16x128x128)))
          (broadcastTo S16x128x128 (shapeCast S16x128x1 (multiReduction .add [2] S16x128
            (exp (subf v37 (broadcastTo S16x128x128 (shapeCast S16x128x1 (maximumf (broadcast S16x128 (Scalar.ofBits .f32 0xFF800000#32)) v38)
              shapeCasts_S16x128_S16x128x1) broadcasts_S16x128x1_S16x128x128))) 0x00000000#32 reduces_S16x128x128_S16x128 (.inl rfl) rfl)
            shapeCasts_S16x128_S16x128x1) broadcasts_S16x128x1_S16x128x128) (ix3 p k j)
        = adj v49 p k j - PGScore.soft (sq v37 p) (fun k => v38 (ix2 p k)) k j := by
      rw [rowDiv_apply, e j]
      unfold PGScore.soft
      refine congrArg (fun s => adj v49 p k j - Ideal.div (PGScore.expo (sq v37 p) (fun k => v38 (ix2 p k)) k j) s) ?_
      exact Finset.sum_congr rfl fun l _ => e l
    exact congrArg₂ (· * ·) s s
  · have m1 := mean_apply v12 p d
    have m2 := mean_apply v20 p d
    exact congrArg₂ (· * ·) (congrArg₂ (· - ·) m1 m2) (congrArg₂ (· - ·) m1 m2)

/-- THE BODY'S RESULT for slice p of its input blocks: the score of that subgraph. -/
theorem body_apply (x0 x1 : Vec Ideal S16x128x256 .f32) (x2 : Vec Ideal S1x256 .f32) (x3 : Vec Ideal S16x128x128 .f32)
    (x4 : Vec Ideal S16x128x128 .i32) (p : Fin 16) (u : Fin 1) :
    k0_pay1 (k0_pay2 x0) (k0_pay3 x1) (k0_pay4 x1 x2 x3) (k0_pay5 x1 x2 x3) x4 (ix2 p u)
      = PGScore.score (rows x0 p) (rows x1 p) (vrow x2) (sq x3 p) (adj x4 p) := by
  rw [pay1_apply]
  unfold PGScore.score
  have h2 : rows (k0_pay2 x0) p = PGScore.unit (rows x0 p) := funext fun k => funext fun d => pay2_apply x0 p k d
  have h3 : rows (k0_pay3 x1) p = PGScore.unit (rows x1 p) := funext fun k => funext fun d => pay3_apply x1 p k d
  have h4 : sq (k0_pay4 x1 x2 x3) p = PGScore.logits (rows x1 p) (vrow x2) (sq x3 p) :=
    funext fun k => funext fun j => pay4_apply x1 x2 x3 p k j
  have h5 : (fun k => k0_pay5 x1 x2 x3 (ix2 p k)) = PGScore.rowMax (PGScore.logits (rows x1 p) (vrow x2) (sq x3 p)) :=
    funext fun k => pay5_apply x1 x2 x3 p k
  rw [h2, h3, h4, h5]

end Cert.KernelIdeal.Pay

end
-- ==== Proof.LibRowGather3.lean ====
/-
  `stablehlo.gather` of ROWS of a matrix at a rank-3 array of start indices, read at an index.

  `x[idx]` of a matrix `x : [N, K]` at an integer array `idx : [R, C]` lowers to a gather over the indices reshaped
  to `[R, C, 1]`: index_vector_dim 2, start_index_map `[0]`, collapsed_slice_dims `[0]`, offset_dims `[2]`, slice_sizes
  `[1, K]`. Result entry `(r, c, k)` is the operand at row `idx[r, c, 0]` — read as a signed integer and clamped into
  `[0, N − 1]` — and column `k`. In particular an operation applied to every row of the operand commutes with the
  gather: the row read depends on the indices only.
-/
import Idealize.ShloMosaic.Lib.ValueIdx

noncomputable section

open Idealize.ShloMosaic Idealize.ShloMosaic.ValueIdx

namespace RowGather3

variable {α : Type}

private theorem one_ne_zero2 : ¬ ((1 : Fin 2) = 0) := by decide

/-- The dimension numbers of a row gather at `[R, C, 1]` start indices: operand `[N, K]`, result `[R, C, K]`. -/
abbrev dims (N K R C : Nat)
    (wf : GatherDims.WF ⟨2, ![N, K]⟩ ⟨3, ![R, C, 1]⟩ ⟨3, ![R, C, K]⟩ [2] [0] [] [0] [] 2 ![1, K]) :
    GatherDims ⟨2, ![N, K]⟩ ⟨3, ![R, C, 1]⟩ ⟨3, ![R, C, K]⟩ where
  offsetDims := [2]
  collapsedSliceDims := [0]
  operandBatchingDims := []
  startIndicesBatchingDims := []
  startIndexMap := [0]
  indexVectorDim := 2
  sliceSizes := ![1, K]
  wf := wf

/-- The row that result entries `(r, c, ·)` read: the start index `idx[r, c, 0]`, signed, clamped into `[0, N − 1]`. -/
def row {N R C w : Nat} (hN : 0 < N) (idx : IVec ⟨3, ![R, C, 1]⟩ w) (r : Fin R) (c : Fin C) : Fin N :=
  ⟨min (idx (ix3 r c (0 : Fin 1))).toInt.toNat (N - 1), by omega⟩

/-- THE ROW GATHER READ AT `(r, c, k)`: the operand at row `row idx r c` and column `k`. -/
theorem gather_apply {N K R C w : Nat} (hN : 0 < N)
    (wf : GatherDims.WF ⟨2, ![N, K]⟩ ⟨3, ![R, C, 1]⟩ ⟨3, ![R, C, K]⟩ [2] [0] [] [0] [] 2 ![1, K])
    (x : (⟨2, ![N, K]⟩ : Shape).Idx → α) (idx : IVec ⟨3, ![R, C, 1]⟩ w) (r : Fin R) (c : Fin C) (k : Fin K) :
    Host.gather (dims N K R C wf) x idx (ix3 r c k) = x (ix2 (row hN idx r c) k) := by
  have h0 : ((dims N K R C wf).operandIdx (ix3 r c k) idx (0 : Fin 2)).val
      = min (idx (ix3 r c (0 : Fin 1))).toInt.toNat (N - 1) := by
    show (dims N K R C wf).start (ix3 r c k) idx 0 + (dims N K R C wf).batchCoord (ix3 r c k) 0
      + (dims N K R C wf).offCoord (ix3 r c k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims N K R C wf).startIndexMap from List.mem_singleton.mpr rfl)]
    have hsi : (dims N K R C wf).siIdx (ix3 r c k) ⟨List.idxOf (0 : Fin 2) (dims N K R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  have h1 : ((dims N K R C wf).operandIdx (ix3 r c k) idx (1 : Fin 2)).val = k.val := by
    show (dims N K R C wf).start (ix3 r c k) idx 1 + (dims N K R C wf).batchCoord (ix3 r c k) 1
      + (dims N K R C wf).offCoord (ix3 r c k) 1 = _
    rw [GatherDims.batchCoord_eq_zero _ _ _ List.not_mem_nil]
    unfold GatherDims.start
    rw [dif_neg (show (1 : Fin 2) ∉ (dims N K R C wf).startIndexMap from
      fun h => absurd (List.mem_singleton.mp h) one_ne_zero2)]
    unfold GatherDims.offCoord
    rw [dif_pos ((GatherDims.mem_sKept _ _).mpr
      ⟨fun h => absurd (List.mem_singleton.mp h) one_ne_zero2, List.not_mem_nil⟩)]
    simp only [Nat.zero_add]
    rfl
  unfold Host.gather
  congr 1
  funext a
  refine Fin.ext ?_
  match a with
  | ⟨0, _⟩ => exact h0
  | ⟨1, _⟩ => exact h1

end RowGather3

end
-- ==== Proof.KernelValue.lean ====
/-
  The kernel's score array after the run: every entry is the score of its subgraph, read off the argument arrays.

  Grid point t works on subgraphs 16·t … 16·t + 15: its feature and text blocks are rows 16·t + p of the two gathered
  [1024, 128, 256] arrays — the table rows the subgraph's node indices name —, its noise and adjacency blocks the
  same slices of those arrays, and it writes the 16 scores back to rows 16·t + p of the [1024, 1] result.  The 64 blocks
  tile the result, so the array ends as one function of the arguments.
-/
import proofs.«149562_j63831803953155_1_alg».proof.Proof.Gen.KernelIdeal.Frame
import proofs.«149562_j63831803953155_1_alg».proof.Proof.KernelPay
import proofs.«149562_j63831803953155_1_alg».proof.Proof.LibRowGather3
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Pay
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The node indices, a negative one wrapped by the table's height, as a [1024, 128, 1] array of start indices. -/
def nodeIdx (a4 : (⟨S1024x128, .i32⟩ : BufTy).Contents (Elt Ideal)) : (⟨S1024x128x1, .i32⟩ : BufTy).Contents (Elt Ideal) :=
  broadcastInDim S1024x128x1 ![0, 1] bcast_S1024x128_S1024x128x1_0_1
    (select (cmpi .slt a4 (broadcastInDim S1024x128 ![] bcast_S_S1024x128 (constantI S_ 32 0#32)))
      (addi a4 (broadcastInDim S1024x128 ![] bcast_S_S1024x128 (constantI S_ 32 100000#32))) a4)

/-- The table row that node k of subgraph b names. -/
def nodeRow (a4 : (⟨S1024x128, .i32⟩ : BufTy).Contents (Elt Ideal)) (b : Fin 1024) (k : Fin 128) : Fin 100000 :=
  RowGather3.row (N := 100000) (by decide) (nodeIdx a4) b k

/-- The gathered feature rows, as the region finds them. -/
theorem V_v6 (c : Dev nD) :
    (V m c main_v6 : S1024x128x256.Idx → EReal)
      = Host.gather gather_S100000x256_S1024x128x1_S1024x128x256_2_0_n_n_0_2_1256 (m ((c : Thread nD τ).loc main_arg0))
          (nodeIdx (m ((c : Thread nD τ).loc main_arg4))) := by
  show StableHlo.after hostOps0 (fun b => m (c, b)) (Proc.devRef .tc main_v6) = _
  after_results
  rfl

/-- The gathered text rows, as the region finds them. -/
theorem V_v13 (c : Dev nD) :
    (V m c main_v13 : S1024x128x256.Idx → EReal)
      = Host.gather gather_S100000x256_S1024x128x1_S1024x128x256_2_0_n_n_0_2_1256 (m ((c : Thread nD τ).loc main_arg1))
          (nodeIdx (m ((c : Thread nD τ).loc main_arg4))) := by
  show StableHlo.after hostOps0 (fun b => m (c, b)) (Proc.devRef .tc main_v13) = _
  after_results
  rfl

/-! ## One grid point -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: point t takes block t along the first axis of every batched window and block 0
    elsewhere. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 2) = t.val ∧ win0_5.index t (1 : Fin 2) = 0 ∧ t.val < 64 :=
  (by decide +kernel : ∀ t : Fin grid0.N, _)

/-- Every block row of the result is some point's. -/
theorem idx_onto : ∀ q : Fin 64, ∃ t : Fin cfg0.N, win0_5.index t = ![q.val, 0] :=
  (by decide +kernel : ∀ q : Fin 64, ∃ t : Fin grid0.N, win0_5.index t = ![q.val, 0])

/-- The score of subgraph b from the argument arrays as launched. -/
def scoreAt (c : Dev nD) (b : Fin 1024) : EReal :=
  PGScore.score
    (fun k d => m ((c : Thread nD τ).loc main_arg0) (ix2 (nodeRow (m ((c : Thread nD τ).loc main_arg4)) b k) d))
    (fun k d => m ((c : Thread nD τ).loc main_arg1) (ix2 (nodeRow (m ((c : Thread nD τ).loc main_arg4)) b k) d))
    (fun d => m ((c : Thread nD τ).loc main_arg2) (ix2 (0 : Fin 1) d))
    (fun k j => m ((c : Thread nD τ).loc main_arg3) (ix3 b k j))
    (fun k j => FloatOps.sitofp (F := Ideal) .f32 (m ((c : Thread nD τ).loc main_arg5) (ix3 b k j)))

/-- The [1024, 1] score array: row b holds the score of subgraph b. -/
def scores (c : Dev nD) : S1024x1.Idx → EReal := fun i => scoreAt m c ⟨(i 0).val, idx2_lt0 i⟩

/-- WHAT POINT t WRITES BACK is block t of the score array. -/
theorem flushed_eq (c : Dev nD) (t : Fin cfg0.N) :
    (dats m 0 c).flushed 5 t = ((cfg0.win 5).blk t).view.read (Elt Ideal) (scores m c) := by
  show (cfg0.win 5).cut (grid0.coords t) ((dats m 0 c).after 5 t) = _
  rw [after0_5]
  unfold out0_5
  rw [View.canon_unit_zero hz2]
  simp only [View.ld_unit_zero (S := S16x128x256) hz3, View.ld_unit_zero (S := S1x256) hz2, View.ld_unit_zero (S := S16x128x128) hz3]
  obtain ⟨a00, a01, a02, a10, a11, a12, a20, a21, a30, a31, a32, a40, a41, a42, a50, a51, ht⟩ := idx_facts t
  funext j
  obtain ⟨p, u, rfl⟩ : ∃ (p : Fin 16) (u : Fin 1), j = ix2 p u := ⟨j 0, j 1, eq_ix2 j⟩
  refine (body_apply (iblk m c 0 t) (iblk m c 1 t) (iblk m c 2 t) (iblk m c 3 t) (iblk m c 4 t) p u).trans ?_
  have hp : p.val < 16 := p.isLt
  have hu : u.val = 0 := by omega
  have hb : (((cfg0.win 5).blk t).view.emb (ix2 p u) 0).val = t.val * 16 + p.val := by
    show win0_5.index t (0 : Fin 2) * 16 + 1 * p.val = _
    omega
  show _ = scoreAt m c ⟨(((cfg0.win 5).blk t).view.emb (ix2 p u) 0).val, _⟩
  have eb : (⟨(((cfg0.win 5).blk t).view.emb (ix2 p u) 0).val, idx2_lt0 _⟩ : Fin 1024) = ⟨t.val * 16 + p.val, by omega⟩ := Fin.ext hb
  rw [eb]
  unfold scoreAt
  have e0 : rows (iblk m c 0 t) p = fun k d => m ((c : Thread nD τ).loc main_arg0)
      (ix2 (nodeRow (m ((c : Thread nD τ).loc main_arg4)) ⟨t.val * 16 + p.val, by omega⟩ k) d) := by
    funext k d
    have hk : k.val < 128 := k.isLt
    have hd : d.val < 256 := d.isLt
    have he : ((cfg0.win 0).blk t).view.emb (ix3 p k d) = ix3 (⟨t.val * 16 + p.val, by omega⟩ : Fin 1024) k d := by
      funext a; apply Fin.ext
      match a with
      | ⟨0, _⟩ => show win0_0.index t (0 : Fin 3) * 16 + 1 * p.val = t.val * 16 + p.val; omega
      | ⟨1, _⟩ => show win0_0.index t (1 : Fin 3) * 128 + 1 * k.val = k.val; omega
      | ⟨2, _⟩ => show win0_0.index t (2 : Fin 3) * 256 + 1 * d.val = d.val; omega
    show V m c main_v6 (((cfg0.win 0).blk t).view.emb (ix3 p k d)) = _
    rw [he]
    refine (congrFun (V_v6 m c) _).trans ?_
    exact RowGather3.gather_apply (N := 100000) (K := 256) (R := 1024) (C := 128) (by decide) _ _ _ _ k d
  have e1 : rows (iblk m c 1 t) p = fun k d => m ((c : Thread nD τ).loc main_arg1)
      (ix2 (nodeRow (m ((c : Thread nD τ).loc main_arg4)) ⟨t.val * 16 + p.val, by omega⟩ k) d) := by
    funext k d
    have hk : k.val < 128 := k.isLt
    have hd : d.val < 256 := d.isLt
    have he : ((cfg0.win 1).blk t).view.emb (ix3 p k d) = ix3 (⟨t.val * 16 + p.val, by omega⟩ : Fin 1024) k d := by
      funext a; apply Fin.ext
      match a with
      | ⟨0, _⟩ => show win0_1.index t (0 : Fin 3) * 16 + 1 * p.val = t.val * 16 + p.val; omega
      | ⟨1, _⟩ => show win0_1.index t (1 : Fin 3) * 128 + 1 * k.val = k.val; omega
      | ⟨2, _⟩ => show win0_1.index t (2 : Fin 3) * 256 + 1 * d.val = d.val; omega
    show V m c main_v13 (((cfg0.win 1).blk t).view.emb (ix3 p k d)) = _
    rw [he]
    refine (congrFun (V_v13 m c) _).trans ?_
    exact RowGather3.gather_apply (N := 100000) (K := 256) (R := 1024) (C := 128) (by decide) _ _ _ _ k d
  have e2 : vrow (iblk m c 2 t) = fun d => m ((c : Thread nD τ).loc main_arg2) (ix2 (0 : Fin 1) d) := by
    funext d
    have hd : d.val < 256 := d.isLt
    have he : ((cfg0.win 2).blk t).view.emb (ix2 (0 : Fin 1) d) = ix2 (0 : Fin 1) d := by
      funext a; apply Fin.ext
      match a with
      | ⟨0, _⟩ => show win0_2.index t (0 : Fin 2) * 1 + 1 * 0 = 0; omega
      | ⟨1, _⟩ => show win0_2.index t (1 : Fin 2) * 256 + 1 * d.val = d.val; omega
    show V m c main_arg2 (((cfg0.win 2).blk t).view.emb (ix2 (0 : Fin 1) d)) = _
    rw [he, V_main_arg2]
  have e3 : sq (iblk m c 3 t) p = fun k j => m ((c : Thread nD τ).loc main_arg3) (ix3 (⟨t.val * 16 + p.val, by omega⟩ : Fin 1024) k j) := by
    funext k j
    have hk : k.val < 128 := k.isLt
    have hj : j.val < 128 := j.isLt
    have he : ((cfg0.win 3).blk t).view.emb (ix3 p k j) = ix3 (⟨t.val * 16 + p.val, by omega⟩ : Fin 1024) k j := by
      funext a; apply Fin.ext
      match a with
      | ⟨0, _⟩ => show win0_3.index t (0 : Fin 3) * 16 + 1 * p.val = t.val * 16 + p.val; omega
      | ⟨1, _⟩ => show win0_3.index t (1 : Fin 3) * 128 + 1 * k.val = k.val; omega
      | ⟨2, _⟩ => show win0_3.index t (2 : Fin 3) * 128 + 1 * j.val = j.val; omega
    show V m c main_arg3 (((cfg0.win 3).blk t).view.emb (ix3 p k j)) = _
    rw [he, V_main_arg3]
  have e4 : adj (iblk m c 4 t) p = fun k j => FloatOps.sitofp (F := Ideal) .f32
      (m ((c : Thread nD τ).loc main_arg5) (ix3 (⟨t.val * 16 + p.val, by omega⟩ : Fin 1024) k j)) := by
    funext k j
    have hk : k.val < 128 := k.isLt
    have hj : j.val < 128 := j.isLt
    have he : ((cfg0.win 4).blk t).view.emb (ix3 p k j) = ix3 (⟨t.val * 16 + p.val, by omega⟩ : Fin 1024) k j := by
      funext a; apply Fin.ext
      match a with
      | ⟨0, _⟩ => show win0_4.index t (0 : Fin 3) * 16 + 1 * p.val = t.val * 16 + p.val; omega
      | ⟨1, _⟩ => show win0_4.index t (1 : Fin 3) * 128 + 1 * k.val = k.val; omega
      | ⟨2, _⟩ => show win0_4.index t (2 : Fin 3) * 128 + 1 * j.val = j.val; omega
    show FloatOps.sitofp (F := Ideal) .f32 (V m c main_arg5 (((cfg0.win 4).blk t).view.emb (ix3 p k j))) = _
    rw [he, V_main_arg5]
  exact congr (congr (congr (congr (congrArg PGScore.score e0) e1) e2) e3) e4

/-- An index of the result is in point t's block iff each coordinate is in the block's range on its axis. -/
theorem mem_blk (t : Fin cfg0.N) (i : S1024x1.Idx) :
    i ∈ ((cfg0.win 5).blk t).view.set ↔ ∀ a : Fin 2, win0_5.index t a * S16x1.size a ≤ (i a).val ∧ (i a).val < win0_5.index t a * S16x1.size a + S16x1.size a := by
  show i ∈ ((View.whole main_v14).slice (win0_5.rect t)).set ↔ _
  rw [View.set_slice_whole, Rect.mem_set_unit]
  exact Iff.rfl

/-- The 64 blocks cover the result: row r is in the block of point r / 16. -/
theorem cover (i : S1024x1.Idx) : ∃ t : Fin cfg0.N, (cfg0.win 5).flush t = true ∧ i ∈ ((cfg0.win 5).blk t).view.set := by
  have hi0 : (i 0).val < 1024 := idx2_lt0 i
  have hi1 : (i 1).val < 1 := idx2_lt1 i
  obtain ⟨t, ht⟩ := idx_onto ⟨(i 0).val / 16, by omega⟩
  have q0 : win0_5.index t (0 : Fin 2) = (i 0).val / 16 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 16 ≤ (i 0).val ∧ (i 0).val < win0_5.index t (0 : Fin 2) * 16 + 16; omega
  | ⟨1, _⟩ => show win0_5.index t (1 : Fin 2) * 1 ≤ (i 1).val ∧ (i 1).val < win0_5.index t (1 : Fin 2) * 1 + 1; omega

/-- THE RESULT ARRAY after the run is the score array. -/
theorem final (c : Dev nD) : (dats m 0 c).arrAt 5 cfg0.N = scores m c :=
  (dats m 0 c).arrAt_eq_of_cover 5 (scores m c) (fun t _ => flushed_eq m c t) (cover)

end Cert.KernelIdeal.KValue

end
-- ==== Proof.Tail.lean ====
/-
  What both programs do with the score vector: the min–max rescaling, and the clipped binary cross-entropy against the
  labels.

  Given the 1024 scores s,
      score = (s − min s) / (max s − min s)                              (minimum from +∞, maximum from −∞)
      c     = min(hi, max(lo, score)),  lo = f32(1e-7), hi = f32(1 − 1e-7)   (the clip, its two bounds kept as words)
      loss  = −( Σ_b ( y_b · log c_b + (1 − y_b) · log1p(−c_b) ) / 1024 ) / 1024.
  Both programs apply exactly these operations to their score vectors, so equal score vectors give equal results.
-/
import proofs.«149562_j63831803953155_1_alg».proof.ReferenceIdeal
import proofs.«149562_j63831803953155_1_alg».proof.Proof.Gen.ReferenceIdeal
import Idealize.ShloMosaic.PureOps.Ideal

noncomputable section

namespace Cert.ReferenceIdeal.Tail

open Cert.ReferenceIdeal Cert.ReferenceIdeal.Gen Idealize.ShloMosaic Idealize.ShloMosaic.TcCoe Idealize.SL.Sem

/-- The scores rescaled to [0, 1] by their minimum and maximum. -/
def rescale (s : (⟨S1024, .f32⟩ : BufTy).Contents (Elt Ideal)) : (⟨S1024, .f32⟩ : BufTy).Contents (Elt Ideal) :=
  Host.divf (F := Ideal)
    (subf s (broadcastInDim S1024 ![] bcast_S_S1024
      (Host.reduce (FloatOps.minimumf (F := Ideal)) s (constant (F := Ideal) S_ .f32 0x7F800000#32) reducesTo_S1024_S_d0 h_S_)))
    (broadcastInDim S1024 ![] bcast_S_S1024
      (subf (Host.reduce (FloatOps.maximumf (F := Ideal)) s (constant (F := Ideal) S_ .f32 0xFF800000#32) reducesTo_S1024_S_d0 h_S_)
        (Host.reduce (FloatOps.minimumf (F := Ideal)) s (constant (F := Ideal) S_ .f32 0x7F800000#32) reducesTo_S1024_S_d0 h_S_)))

/-- The rescaled scores clipped into [1e-7, 1 − 1e-7]. -/
def clipped (sc : (⟨S1024, .f32⟩ : BufTy).Contents (Elt Ideal)) : (⟨S1024, .f32⟩ : BufTy).Contents (Elt Ideal) :=
  minimumf (broadcastInDim S1024 ![] bcast_S_S1024 (id (constant (F := Ideal) S_ .f32 0x3F7FFFFE#32)))
    (maximumf (broadcastInDim S1024 ![] bcast_S_S1024 (id (constant (F := Ideal) S_ .f32 0x33D6BF95#32))) sc)

/-- The loss: the clipped binary cross-entropy against the labels, averaged and divided by the batch size. -/
def loss (sc : (⟨S1024, .f32⟩ : BufTy).Contents (Elt Ideal)) (a6 : (⟨S1024, .i32⟩ : BufTy).Contents (Elt Ideal)) :
    (⟨S_, .f32⟩ : BufTy).Contents (Elt Ideal) :=
  Host.divf (F := Ideal)
    (Host.negf (F := Ideal)
      (Host.divf (F := Ideal)
        (Host.reduceAdd (F := Ideal)
          (addf (mulf (sitofp (F := Ideal) .f32 a6) (Host.log (F := Ideal) (clipped sc)))
            (mulf (subf (broadcastInDim S1024 ![] bcast_S_S1024 (constant (F := Ideal) S_ .f32 0x3F800000#32)) (sitofp (F := Ideal) .f32 a6))
              (Host.log1p (F := Ideal) (Host.negf (F := Ideal) (clipped sc)))))
          (constant (F := Ideal) S_ .f32 0x00000000#32) reducesTo_S1024_S_d0 h_S_)
        (constant (F := Ideal) S_ .f32 0x44800000#32)))
    (constant (F := Ideal) S_ .f32 0x44800000#32)

end Cert.ReferenceIdeal.Tail

end
-- ==== Proof.KernelRun.lean ====
/-
  The kernel program's run, read: its two results are the common tail of its score vector.

  After the region the [1024, 1] score array is reshaped to a vector, rescaled by its minimum and maximum, clipped, and
  turned into the loss against the labels — the lines `Tail.rescale` and `Tail.loss` name.  The vector's entry b is the
  score of subgraph b.
-/
import proofs.«149562_j63831803953155_1_alg».proof.Proof.KernelValue
import proofs.«149562_j63831803953155_1_alg».proof.Proof.Tail

set_option maxRecDepth 16384

noncomputable section

namespace Cert.KernelIdeal.KRun

open Cert.KernelIdeal Cert.KernelIdeal.Gen Cert.KernelIdeal.KValue
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The score array as a vector of 1024 entries. -/
def scoreVec (c : Dev nD) : (⟨S1024, .f32⟩ : BufTy).Contents (Elt Ideal) :=
  shapeCast S1024 (scores m c) shapeCasts_S1024x1_S1024

/-- Entry b of the vector is the score of subgraph b. -/
theorem scoreVec_apply (c : Dev nD) (b : Fin 1024) : scoreVec m c (ix1 b) = scoreAt m c b := by
  unfold scoreVec
  refine (shapeCast_apply (scores m c) shapeCasts_S1024x1_S1024 (ix1 b) (ix2 b (0 : Fin 1)) ?_).trans ?_
  · rw [Shape.rowMajor_val_two, Shape.rowMajor_val_one]
    show b.val * 1 + 0 = b.val
    omega
  · rfl

/-- What the region leaves in the result array, as the lines after it find it. -/
theorem left (c : Dev nD) :
    Pipeline.withArrays (cfgs 0).spec c (V0 m c) (fun w => (dats m 0 c).arrAt w (cfgs 0).N) (Proc.devRef .tc main_v14) = scores m c :=
  (Pipeline.withArrays_arr spec0 launch0.win.arr_inj c _ _ 5).trans (final m c)

/-- The labels, as the lines after the region find them. -/
theorem labels (c : Dev nD) :
    Pipeline.withArrays (cfgs 0).spec c (V0 m c) (fun w => (dats m 0 c).arrAt w (cfgs 0).N) (Proc.devRef .tc main_arg6)
      = m ((c : Thread nD τ).loc main_arg6) :=
  (Pipeline.withArrays_of_ne _ c (V0 m c) _ main_arg6 (by exact (by decide : ∀ w, Pipeline.arrRef spec0 w ≠ main_arg6))).trans
    (V_main_arg6 m c)

/-- The first result: the score vector rescaled. -/
theorem tail22 (c : Dev nD) :
    Pipeline.afterTail₀ cfgs (dats m) 0 (V0 m) [hostOps1, hostOps1_1, hostOps1_2] c main_v22
      = Cert.ReferenceIdeal.Tail.rescale (scoreVec m c) := by
  unfold Pipeline.afterTail₀
  simp only [hostOps1, hostOps1_1, hostOps1_2, List.flatten_cons, List.flatten_nil, List.append_nil, List.cons_append, List.nil_append]
  after_results
  rw [left]
  rfl

/-- The second result: the loss of the rescaled vector against the labels. -/
theorem tail36 (c : Dev nD) :
    Pipeline.afterTail₀ cfgs (dats m) 0 (V0 m) [hostOps1, hostOps1_1, hostOps1_2] c main_v36
      = Cert.ReferenceIdeal.Tail.loss (Cert.ReferenceIdeal.Tail.rescale (scoreVec m c)) (m ((c : Thread nD τ).loc main_arg6)) := by
  unfold Pipeline.afterTail₀
  simp only [hostOps1, hostOps1_1, hostOps1_2, List.flatten_cons, List.flatten_nil, List.append_nil, List.cons_append, List.nil_append]
  after_results_simp
  rw [left, labels]
  rfl

/-- THE RUN, READ: every weakly fair execution of the kernel program terminates with its first result the rescaled score
    vector, its second the loss, and its argument arrays unchanged. -/
theorem run : θ_run defs (onTc (τ := τ) (main (F := Ideal))) ⟨m, fun _ => 0, ρ⟩ (fun r => ∀ c : Dev nD,
      r.2.mem ((c.tc : Thread nD τ).loc main_v22) = Cert.ReferenceIdeal.Tail.rescale (scoreVec m c)
      ∧ r.2.mem ((c.tc : Thread nD τ).loc main_v36)
          = Cert.ReferenceIdeal.Tail.loss (Cert.ReferenceIdeal.Tail.rescale (scoreVec m c)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v22 (Pipeline.mem_restRefs_of main_v22 (by decide) (by decide))).trans (tail22 m c),
      ((h c).2 main_v36 (Pipeline.mem_restRefs_of main_v36 (by decide) (by decide))).trans (tail36 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c))),
      ((h c).2 main_arg6 (Pipeline.mem_restRefs_of main_arg6 (by decide) (by decide))).trans (W_main_arg6 m (dats m) c)⟩)
    (run_main m ρ)

end Cert.KernelIdeal.KRun

end
-- ==== Proof.RefRows.lean ====
/-
  The reference's three row normalisations, read at an index.

  The reference normalises every row of the two [100000, 256] tables, subtracts the virtual row from the normalised text
  table and normalises again.  At (n, d) each is `PGScore.unit` / `PGScore.shifted` of the table, row n, column d: a row's
  result depends on that row alone, which is why gathering rows before or after normalising gives the same values.
-/
import proofs.«149562_j63831803953155_1_alg».proof.Proof.Gen.ReferenceIdeal.Read
import proofs.«149562_j63831803953155_1_alg».proof.Proof.Score

set_option maxRecDepth 16384

noncomputable section

namespace Cert.ReferenceIdeal.RefRows

open Cert.ReferenceIdeal Cert.ReferenceIdeal.Gen Cert.ReferenceIdeal.Read Idealize.ShloMosaic Idealize.ShloMosaic.ValueIdx
open scoped BigOperators

/-- A [100000, 256] table as a matrix of rows. -/
abbrev mat (x : (⟨S100000x256, .f32⟩ : BufTy).Contents (Elt Ideal)) : Fin 100000 → Fin 256 → EReal := fun n d => x (ix2 n d)
/-- The virtual row. -/
abbrev vrow (x : (⟨S1x256, .f32⟩ : BufTy).Contents (Elt Ideal)) : Fin 256 → EReal := fun d => x (ix2 (0 : Fin 1) d)

/-- The zero word is zero. -/
theorem zero_word_add (s : EReal) : (FloatOps.ofBits (F := Ideal) .f32 0x00000000#32 : EReal) + s = s := by
  show Ideal.ofBits .f32 0x00000000#32 + s = s
  rw [Ideal.ofBits_zero_f32, zero_add]

theorem i3 (n : Fin 100000) (d : Fin 256) (k : Fin 256) :
    idx_main_call0_v1 (idx_main_call0_v2 (idx_main_v3 (ix2 n d))) k = ix2 n k := by
  funext a; refine Fin.ext ?_
  match a with
  | ⟨0, _⟩ => rfl
  | ⟨1, _⟩ => rfl

/-- The normalised feature table at (n, d). -/
theorem v4_apply (x0 : (⟨S100000x256, .f32⟩ : BufTy).Contents (Elt Ideal)) (n : Fin 100000) (d : Fin 256) :
    val_main_v4 (F := Ideal) x0 (ix2 n d) = PGScore.unit (mat x0) n d := by
  rw [val_main_v4_apply, val_main_v3_apply, val_main_v2_apply, val_main_v0_apply, val_main_call0_v2_apply,
    val_main_call0_v1_apply, val_main_v1_apply, val_main_cst_apply, val_main_call0_cst_apply, zero_word_add]
  simp only [val_main_call0_v0_apply, i3]
  rfl

theorem i8 (n : Fin 100000) (d : Fin 256) (k : Fin 256) :
    idx_main_call1_v1 (idx_main_call1_v2 (idx_main_v8 (ix2 n d))) k = ix2 n k := by
  funext a; refine Fin.ext ?_
  match a with
  | ⟨0, _⟩ => rfl
  | ⟨1, _⟩ => rfl

/-- The normalised text table at (n, d). -/
theorem v9_apply (x1 : (⟨S100000x256, .f32⟩ : BufTy).Contents (Elt Ideal)) (n : Fin 100000) (d : Fin 256) :
    val_main_v9 (F := Ideal) x1 (ix2 n d) = PGScore.unit (mat x1) n d := by
  rw [val_main_v9_apply, val_main_v8_apply, val_main_v7_apply, val_main_v5_apply, val_main_call1_v2_apply,
    val_main_call1_v1_apply, val_main_v6_apply, val_main_cst_0_apply, val_main_call1_cst_apply, zero_word_add]
  simp only [val_main_call1_v0_apply, i8]
  rfl

theorem i10 (n : Fin 100000) (d : Fin 256) : idx_main_v10 (ix2 n d) = ix2 (0 : Fin 1) d := by
  funext a; refine Fin.ext ?_
  match a with
  | ⟨0, _⟩ => rfl
  | ⟨1, _⟩ => rfl

/-- The normalised text table minus the virtual row, at (n, d). -/
theorem v11_apply (x1 : (⟨S100000x256, .f32⟩ : BufTy).Contents (Elt Ideal)) (x2 : (⟨S1x256, .f32⟩ : BufTy).Contents (Elt Ideal))
    (n : Fin 100000) (d : Fin 256) :
    val_main_v11 (F := Ideal) x1 x2 (ix2 n d) = PGScore.unit (mat x1) n d - vrow x2 d := by
  rw [val_main_v11_apply, val_main_v10_apply, v9_apply, i10]
  rfl

theorem i15 (n : Fin 100000) (d : Fin 256) (k : Fin 256) :
    idx_main_call2_v1 (idx_main_call2_v2 (idx_main_v15 (ix2 n d))) k = ix2 n k := by
  funext a; refine Fin.ext ?_
  match a with
  | ⟨0, _⟩ => rfl
  | ⟨1, _⟩ => rfl

/-- The shifted, re-normalised text table T at (n, d). -/
theorem v16_apply (x1 : (⟨S100000x256, .f32⟩ : BufTy).Contents (Elt Ideal)) (x2 : (⟨S1x256, .f32⟩ : BufTy).Contents (Elt Ideal))
    (n : Fin 100000) (d : Fin 256) :
    val_main_v16 (F := Ideal) x1 x2 (ix2 n d) = PGScore.shifted (mat x1) (vrow x2) n d := by
  rw [val_main_v16_apply, val_main_v15_apply, val_main_v14_apply, val_main_v12_apply, val_main_call2_v2_apply,
    val_main_call2_v1_apply, val_main_v13_apply, val_main_cst_1_apply, val_main_call2_cst_apply, zero_word_add]
  simp only [val_main_call2_v0_apply, i15, v11_apply]
  rfl

end Cert.ReferenceIdeal.RefRows

end
-- ==== Proof.RefScore.lean ====
/-
  The reference's score vector, read at a subgraph.

  After normalising the whole tables the reference gathers, for subgraph b, the 128 rows its node indices name, forms
  T·Tᵀ − 1/2 + noise, the shifted row softmax, the distance to the adjacency, and the distance of the two mean rows.  At
  subgraph b this is `PGScore.score` of the GATHERED rows of the raw tables: a row's normalisation depends on that row
  alone, so the normalised table's row r is the normalisation of the raw table's row r.
-/
import proofs.«149562_j63831803953155_1_alg».proof.Proof.RefRows
import proofs.«149562_j63831803953155_1_alg».proof.Proof.LibRowGather3
import proofs.«149562_j63831803953155_1_alg».proof.Proof.LibLastAxis3

set_option maxRecDepth 16384

noncomputable section

namespace Cert.ReferenceIdeal.RefScore

open Cert.ReferenceIdeal Cert.ReferenceIdeal.Gen Cert.ReferenceIdeal.Read Cert.ReferenceIdeal.RefRows
open Idealize.ShloMosaic Idealize.ShloMosaic.ValueIdx
open scoped BigOperators

/-- The table row that node k of subgraph b names: its index, wrapped if negative, clamped into the table. -/
def nodeRow (x4 : (⟨S1024x128, .i32⟩ : BufTy).Contents (Elt Ideal)) (b : Fin 1024) (k : Fin 128) : Fin 100000 :=
  RowGather3.row (N := 100000) (by decide) (val_main_v22 (F := Ideal) x4) b k

/-- The rows of a table that subgraph b gathers. -/
abbrev gath (x : (⟨S100000x256, .f32⟩ : BufTy).Contents (Elt Ideal)) (x4 : (⟨S1024x128, .i32⟩ : BufTy).Contents (Elt Ideal))
    (b : Fin 1024) : Fin 128 → Fin 256 → EReal := fun k d => x (ix2 (nodeRow x4 b k) d)
/-- Slice b of a [1024, 128, 128] array. -/
abbrev sl (x : (⟨S1024x128x128, .f32⟩ : BufTy).Contents (Elt Ideal)) (b : Fin 1024) : Fin 128 → Fin 128 → EReal :=
  fun k j => x (ix3 b k j)
/-- Slice b of the integer adjacency, as reals. -/
abbrev adjR (x : (⟨S1024x128x128, .i32⟩ : BufTy).Contents (Elt Ideal)) (b : Fin 1024) : Fin 128 → Fin 128 → EReal :=
  fun k j => FloatOps.sitofp (F := Ideal) .f32 (x (ix3 b k j))

/-- The three index arrays the reference builds from the node indices are one array. -/
theorem v52_eq (x4 : (⟨S1024x128, .i32⟩ : BufTy).Contents (Elt Ideal)) : val_main_v52 (F := Ideal) x4 = val_main_v22 (F := Ideal) x4 := rfl
theorem v62_eq (x4 : (⟨S1024x128, .i32⟩ : BufTy).Contents (Elt Ideal)) : val_main_v62 (F := Ideal) x4 = val_main_v22 (F := Ideal) x4 := rfl

variable (x0 x1 : (⟨S100000x256, .f32⟩ : BufTy).Contents (Elt Ideal)) (x2 : (⟨S1x256, .f32⟩ : BufTy).Contents (Elt Ideal))
  (x3 : (⟨S1024x128x128, .f32⟩ : BufTy).Contents (Elt Ideal)) (x4 : (⟨S1024x128, .i32⟩ : BufTy).Contents (Elt Ideal))
  (x5 : (⟨S1024x128x128, .i32⟩ : BufTy).Contents (Elt Ideal))

/-- The gathered rows of T. -/
theorem v23_apply (b : Fin 1024) (k : Fin 128) (d : Fin 256) :
    val_main_v23 (F := Ideal) x1 x2 x4 (ix3 b k d) = PGScore.shifted (gath x1 x4 b) (vrow x2) k d := by
  unfold val_main_v23
  refine (RowGather3.gather_apply (N := 100000) (K := 256) (R := 1024) (C := 128) (by decide) _
    (val_main_v16 (F := Ideal) x1 x2) (val_main_v22 (F := Ideal) x4) b k d).trans ?_
  exact v16_apply x1 x2 (nodeRow x4 b k) d

/-- The gathered rows of the normalised feature table. -/
theorem v53_apply (b : Fin 1024) (k : Fin 128) (d : Fin 256) :
    val_main_v53 (F := Ideal) x0 x4 (ix3 b k d) = PGScore.unit (gath x0 x4 b) k d := by
  unfold val_main_v53
  rw [v52_eq]
  refine (RowGather3.gather_apply (N := 100000) (K := 256) (R := 1024) (C := 128) (by decide) _
    (val_main_v4 (F := Ideal) x0) (val_main_v22 (F := Ideal) x4) b k d).trans ?_
  exact RefRows.v4_apply x0 (nodeRow x4 b k) d

/-- The gathered rows of the normalised text table. -/
theorem v63_apply (b : Fin 1024) (k : Fin 128) (d : Fin 256) :
    val_main_v63 (F := Ideal) x1 x4 (ix3 b k d) = PGScore.unit (gath x1 x4 b) k d := by
  unfold val_main_v63
  rw [v62_eq]
  refine (RowGather3.gather_apply (N := 100000) (K := 256) (R := 1024) (C := 128) (by decide) _
    (val_main_v9 (F := Ideal) x1) (val_main_v22 (F := Ideal) x4) b k d).trans ?_
  exact RefRows.v9_apply x1 (nodeRow x4 b k) d

theorem il24 (b : Fin 1024) (k j : Fin 128) (d : Fin 256) : lidx_main_v24 (ix3 b k j) d = ix3 b k d := by
  funext a; refine Fin.ext ?_
  match a with
  | ⟨0, _⟩ => rfl
  | ⟨1, _⟩ => rfl
  | ⟨2, _⟩ => rfl
theorem ir24 (b : Fin 1024) (k j : Fin 128) (d : Fin 256) : ridx_main_v24 (ix3 b k j) d = ix3 b j d := by
  funext a; refine Fin.ext ?_
  match a with
  | ⟨0, _⟩ => rfl
  | ⟨1, _⟩ => rfl
  | ⟨2, _⟩ => rfl

/-- The logits of subgraph b. -/
theorem v27_apply (b : Fin 1024) (k j : Fin 128) :
    val_main_v27 (F := Ideal) x1 x2 x3 x4 (ix3 b k j) = PGScore.logits (gath x1 x4 b) (vrow x2) (sl x3 b) k j := by
  rw [val_main_v27_apply, val_main_v26_apply, val_main_v25_apply, val_main_cst_3_apply, val_main_v24_apply]
  simp only [il24, ir24, v23_apply]
  rfl

/-- Their row maxima. -/
theorem v28_apply (b : Fin 1024) (k : Fin 128) :
    val_main_v28 (F := Ideal) x1 x2 x3 x4 (ix2 b k) = PGScore.rowMax (PGScore.logits (gath x1 x4 b) (vrow x2) (sl x3 b)) k := by
  unfold val_main_v28
  refine (LastAxis3.hostMax_last_apply (val_main_v27 (F := Ideal) x1 x2 x3 x4) _ _ (by decide) _ b k).trans ?_
  unfold PGScore.rowMax
  exact congrArg (fun f => (Finset.univ : Finset (Fin 128)).fold max PGScore.negInf f) (funext fun l => v27_apply x1 x2 x3 x4 b k l)

theorem i32 (b : Fin 1024) (k l : Fin 128) : idx_main_v31 (idx_main_v32 (ix3 b k l)) = ix2 b k := by
  funext a; refine Fin.ext ?_
  match a with
  | ⟨0, _⟩ => rfl
  | ⟨1, _⟩ => rfl

/-- The shifted exponentials. -/
theorem v34_apply (b : Fin 1024) (k l : Fin 128) :
    val_main_v34 (F := Ideal) x1 x2 x3 x4 (ix3 b k l)
      = PGScore.expo (PGScore.logits (gath x1 x4 b) (vrow x2) (sl x3 b)) (PGScore.rowMax (PGScore.logits (gath x1 x4 b) (vrow x2) (sl x3 b))) k l := by
  rw [val_main_v34_apply, val_main_v33_apply, val_main_v32_apply, val_main_v31_apply, val_main_v30_apply, val_main_v29_apply,
    val_main_cst_5_apply, v27_apply, i32, v28_apply]
  rfl

theorem i37 (b : Fin 1024) (k j l : Fin 128) : idx_main_v35 (idx_main_v36 (idx_main_v37 (ix3 b k j))) l = ix3 b k l := by
  funext a; refine Fin.ext ?_
  match a with
  | ⟨0, _⟩ => rfl
  | ⟨1, _⟩ => rfl
  | ⟨2, _⟩ => rfl

/-- The row softmax. -/
theorem v38_apply (b : Fin 1024) (k j : Fin 128) :
    val_main_v38 (F := Ideal) x1 x2 x3 x4 (ix3 b k j)
      = PGScore.soft (PGScore.logits (gath x1 x4 b) (vrow x2) (sl x3 b)) (PGScore.rowMax (PGScore.logits (gath x1 x4 b) (vrow x2) (sl x3 b))) k j := by
  rw [val_main_v38_apply, val_main_v37_apply, val_main_v36_apply, val_main_v35_apply, val_main_cst_6_apply, zero_word_add]
  simp only [i37, v34_apply]
  rfl

theorem i42 (b : Fin 1024) (k j : Fin 128) : idx_main_v42 (ix2 b k) j = ix3 b k j := by
  funext a; refine Fin.ext ?_
  match a with
  | ⟨0, _⟩ => rfl
  | ⟨1, _⟩ => rfl
  | ⟨2, _⟩ => rfl
theorem i44 (b : Fin 1024) (k : Fin 128) : idx_main_v44 (ix1 b) k = ix2 b k := by
  funext a; refine Fin.ext ?_
  match a with
  | ⟨0, _⟩ => rfl
  | ⟨1, _⟩ => rfl

/-- s_diff of subgraph b. -/
theorem v46_apply (b : Fin 1024) :
    val_main_v46 (F := Ideal) x1 x2 x3 x4 x5 (ix1 b)
      = PGScore.sDiff (PGScore.logits (gath x1 x4 b) (vrow x2) (sl x3 b)) (PGScore.rowMax (PGScore.logits (gath x1 x4 b) (vrow x2) (sl x3 b))) (adjR x5 b) := by
  rw [val_main_v46_apply, val_main_v45_apply, val_main_cst_9_apply, val_main_v44_apply, val_main_cst_8_apply, zero_word_add]
  simp only [i44, val_main_v43_apply, val_main_v42_apply, val_main_cst_7_apply, zero_word_add, i42, val_main_v41_apply, val_main_v40_apply,
    val_main_v39_apply, v38_apply]
  rfl

theorem i54 (b : Fin 1024) (d : Fin 256) (k : Fin 128) : idx_main_v54 (ix2 b d) k = ix3 b k d := by
  funext a; refine Fin.ext ?_
  match a with
  | ⟨0, _⟩ => rfl
  | ⟨1, _⟩ => rfl
  | ⟨2, _⟩ => rfl
theorem i64 (b : Fin 1024) (d : Fin 256) (k : Fin 128) : idx_main_v64 (ix2 b d) k = ix3 b k d := by
  funext a; refine Fin.ext ?_
  match a with
  | ⟨0, _⟩ => rfl
  | ⟨1, _⟩ => rfl
  | ⟨2, _⟩ => rfl

/-- The mean normalised feature row of subgraph b. -/
theorem v56_apply (b : Fin 1024) (d : Fin 256) :
    val_main_v56 (F := Ideal) x0 x4 (ix2 b d) = PGScore.meanRow (PGScore.unit (gath x0 x4 b)) d := by
  rw [val_main_v56_apply, val_main_v55_apply, val_main_cst_13_apply, val_main_v54_apply, val_main_cst_12_apply, zero_word_add]
  simp only [i54, v53_apply]
  rfl

/-- The mean normalised text row of subgraph b. -/
theorem v66_apply (b : Fin 1024) (d : Fin 256) :
    val_main_v66 (F := Ideal) x1 x4 (ix2 b d) = PGScore.meanRow (PGScore.unit (gath x1 x4 b)) d := by
  rw [val_main_v66_apply, val_main_v65_apply, val_main_cst_17_apply, val_main_v64_apply, val_main_cst_16_apply, zero_word_add]
  simp only [i64, v63_apply]
  rfl

theorem ic3 (b : Fin 1024) (d : Fin 256) : idx_main_call3_v1 (ix1 b) d = ix2 b d := by
  funext a; refine Fin.ext ?_
  match a with
  | ⟨0, _⟩ => rfl
  | ⟨1, _⟩ => rfl

/-- f_diff of subgraph b. -/
theorem v68_apply (b : Fin 1024) :
    val_main_v68 (F := Ideal) x0 x1 x4 (ix1 b) = PGScore.fDiff (PGScore.unit (gath x0 x4 b)) (PGScore.unit (gath x1 x4 b)) := by
  rw [val_main_v68_apply, val_main_call3_v1_apply, val_main_call3_cst_apply, zero_word_add]
  simp only [ic3, val_main_call3_v0_apply, val_main_v67_apply, v56_apply, v66_apply]
  rfl

/-- THE REFERENCE'S SCORE of subgraph b, before the min–max rescaling. -/
theorem v71_apply (b : Fin 1024) :
    val_main_v71 (F := Ideal) x0 x1 x2 x3 x4 x5 (ix1 b)
      = PGScore.score (gath x0 x4 b) (gath x1 x4 b) (vrow x2) (sl x3 b) (adjR x5 b) := by
  rw [val_main_v71_apply, val_main_v70_apply, val_main_v69_apply, val_main_cst_18_apply, v46_apply, v68_apply]
  rfl

end Cert.ReferenceIdeal.RefScore

end
-- ==== Proof.RefRun.lean ====
/-
  The reference's two results as the common tail of its score vector.

  Entry b of the reference's score vector is `PGScore.score` of the rows subgraph b gathers from the raw tables; its first
  result is that vector rescaled, its second the loss of the rescaled vector against the labels.
-/
import proofs.«149562_j63831803953155_1_alg».proof.Proof.RefScore
import proofs.«149562_j63831803953155_1_alg».proof.Proof.Tail

set_option maxRecDepth 16384

noncomputable section

namespace Cert.ReferenceIdeal.RefRun

open Cert.ReferenceIdeal Cert.ReferenceIdeal.Gen Cert.ReferenceIdeal.Read Cert.ReferenceIdeal.RefRows Cert.ReferenceIdeal.RefScore
open Idealize.ShloMosaic Idealize.ShloMosaic.TcCoe Idealize.SL.Sem Idealize.ShloMosaic.ValueIdx

variable (x0 x1 : (⟨S100000x256, .f32⟩ : BufTy).Contents (Elt Ideal)) (x2 : (⟨S1x256, .f32⟩ : BufTy).Contents (Elt Ideal))
  (x3 : (⟨S1024x128x128, .f32⟩ : BufTy).Contents (Elt Ideal)) (x4 : (⟨S1024x128, .i32⟩ : BufTy).Contents (Elt Ideal))
  (x5 : (⟨S1024x128x128, .i32⟩ : BufTy).Contents (Elt Ideal)) (x6 : (⟨S1024, .i32⟩ : BufTy).Contents (Elt Ideal))

/-- The score of subgraph b from the argument arrays. -/
def scoreAt (b : Fin 1024) : EReal :=
  PGScore.score (gath x0 x4 b) (gath x1 x4 b) (vrow x2) (sl x3 b) (adjR x5 b)

/-- The 1024 scores as a vector. -/
def scoreVec : (⟨S1024, .f32⟩ : BufTy).Contents (Elt Ideal) := fun i => scoreAt x0 x1 x2 x3 x4 x5 ⟨(i 0).val, (i 0).isLt⟩

/-- The reference's score vector is that vector. -/
theorem v71_eq : val_main_v71 (F := Ideal) x0 x1 x2 x3 x4 x5 = scoreVec x0 x1 x2 x3 x4 x5 := by
  funext i
  obtain ⟨b, rfl⟩ : ∃ b : Fin 1024, i = ix1 b := ⟨i 0, eq_ix1 i⟩
  exact v71_apply x0 x1 x2 x3 x4 x5 b

/-- The first result: the score vector rescaled. -/
theorem v79_eq : val_main_v79 (F := Ideal) x0 x1 x2 x3 x4 x5 = Tail.rescale (scoreVec x0 x1 x2 x3 x4 x5) := by
  rw [← v71_eq]
  rfl

/-- The second result: the loss of the rescaled vector. -/
theorem v93_eq : val_main_v93 (F := Ideal) x0 x1 x2 x3 x4 x5 x6 = Tail.loss (Tail.rescale (scoreVec x0 x1 x2 x3 x4 x5)) x6 := by
  rw [← v79_eq]
  rfl

end Cert.ReferenceIdeal.RefRun

end
-- ==== Proof.Bridge.lean ====
/-
  The two score vectors are one vector.

  Both programs read, for subgraph b and node k, the table row named by the same wrapped and clamped node index, and
  both compute `PGScore.score` of the rows so gathered, of the virtual row and of slice b of the noise and the
  adjacency.  Index by index the two vectors are the same function of the argument arrays.
-/
import proofs.«149562_j63831803953155_1_alg».proof.Proof.KernelRun
import proofs.«149562_j63831803953155_1_alg».proof.Proof.RefRun

set_option maxRecDepth 16384

noncomputable section

namespace Cert.Proof.Bridge

open Idealize.ShloMosaic Idealize.ShloMosaic.TcCoe Idealize.SL.Sem Idealize.ShloMosaic.ValueIdx

/-- The kernel program's and the reference's start-index arrays are the same array of the node indices. -/
theorem nodeIdx_eq (a4 : (⟨Cert.KernelIdeal.S1024x128, .i32⟩ : BufTy).Contents (Elt Ideal)) :
    Cert.KernelIdeal.KValue.nodeIdx a4 = Cert.ReferenceIdeal.Read.val_main_v22 (F := Ideal) a4 := rfl

/-- So they name the same table rows. -/
theorem nodeRow_eq (a4 : (⟨Cert.KernelIdeal.S1024x128, .i32⟩ : BufTy).Contents (Elt Ideal)) (b : Fin 1024) (k : Fin 128) :
    Cert.KernelIdeal.KValue.nodeRow a4 b k = Cert.ReferenceIdeal.RefScore.nodeRow a4 b k := by
  unfold Cert.KernelIdeal.KValue.nodeRow Cert.ReferenceIdeal.RefScore.nodeRow
  rw [nodeIdx_eq]

/-- THE BRIDGE: the kernel program's score vector is the reference's, of the same argument arrays. -/
theorem scoreVec_eq (m : (ℓ : Loc Cert.KernelIdeal.nD Cert.KernelIdeal.τ Cert.KernelIdeal.sig) → Buf (Elt Ideal) ℓ)
    (c : Dev Cert.KernelIdeal.nD) :
    Cert.KernelIdeal.KRun.scoreVec m c
      = Cert.ReferenceIdeal.RefRun.scoreVec
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  funext i
  obtain ⟨b, rfl⟩ : ∃ b : Fin 1024, i = ix1 b := ⟨i 0, eq_ix1 i⟩
  rw [Cert.KernelIdeal.KRun.scoreVec_apply]
  show Cert.KernelIdeal.KValue.scoreAt m c b = Cert.ReferenceIdeal.RefRun.scoreAt _ _ _ _ _ _ b
  unfold Cert.KernelIdeal.KValue.scoreAt Cert.ReferenceIdeal.RefRun.scoreAt
  simp only [nodeRow_eq]

end Cert.Proof.Bridge

end
-- ==== Proof.lean ====
/-
  The certificate: a Pallas kernel that scores 1024 ego-subgraphs against its plain jnp reference.

  Both programs end in the same two results of one vector of 1024 scores: the vector rescaled by its minimum and maximum,
  and the clipped cross-entropy loss of the rescaled vector against the labels (`Tail.rescale`, `Tail.loss`).  The score
  of subgraph b is `PGScore.score` of the 128 feature rows and 128 text rows its node indices name, the virtual row, and
  slice b of the noise and adjacency arrays.

  The kernel program gathers the raw rows on the host and then, sixteen subgraphs per grid point, normalises them,
  forms T·Tᵀ on the matrix unit, and reduces; the reference normalises the whole 100000-row tables first and gathers
  afterwards.  The two agree at the extended reals because a row's normalisation depends on that row alone (so gathering
  commutes with it), because the matrix unit's product into a zero accumulator and the host's product are the same sum
  over the 256 columns, because a lane sum and a host sum are the same finite sum, and because the 64 blocks of 16 rows tile
  the 1024 results.  No law that fails at an infinity is used, so the finiteness precondition is never opened.

  The three frames are the generated ones (the reference's is its generated run with the results dropped); the idealized
  kernel program is the kernel program's own text with no operation rewritten, so `preserves` is trivial.
-/
import proofs.«149562_j63831803953155_1_alg».proof.Defs
import proofs.«149562_j63831803953155_1_alg».proof.Proof.Gen.Kernel
import proofs.«149562_j63831803953155_1_alg».proof.Proof.Gen.Kernel.Skeleton
import proofs.«149562_j63831803953155_1_alg».proof.Proof.Gen.Kernel.Launch
import proofs.«149562_j63831803953155_1_alg».proof.Proof.Gen.Kernel.Points
import proofs.«149562_j63831803953155_1_alg».proof.Proof.Gen.Kernel.Frame
import proofs.«149562_j63831803953155_1_alg».proof.Proof.Gen.KernelIdeal
import proofs.«149562_j63831803953155_1_alg».proof.Proof.Gen.KernelIdeal.Skeleton
import proofs.«149562_j63831803953155_1_alg».proof.Proof.Gen.KernelIdeal.Launch
import proofs.«149562_j63831803953155_1_alg».proof.Proof.Gen.KernelIdeal.Points
import proofs.«149562_j63831803953155_1_alg».proof.Proof.Gen.KernelIdeal.Frame
import proofs.«149562_j63831803953155_1_alg».proof.Proof.Gen.ReferenceIdeal
import proofs.«149562_j63831803953155_1_alg».proof.Proof.Gen.Pre_finite_inputs
import proofs.«149562_j63831803953155_1_alg».proof.Proof.Gen.ReferenceIdeal.Run
import proofs.«149562_j63831803953155_1_alg».proof.Proof.Gen.ReferenceIdeal.Read
import proofs.«149562_j63831803953155_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten in the idealized program. -/
theorem preserves : Cert.preserves_Kernel_KernelIdeal := trivial

/-- Both programs end at the rescaled score vector and its loss, of one score vector (`Bridge.scoreVec_eq`) and of the same
    labels. -/
theorem algebraic : Cert.algebraic_KernelIdeal_ReferenceIdeal := by
  intro m ρ m' ρ' _ hagree
  refine ⟨fun c => Cert.ReferenceIdeal.Tail.rescale (Cert.KernelIdeal.KRun.scoreVec m c),
    fun c => Cert.ReferenceIdeal.Tail.loss (Cert.ReferenceIdeal.Tail.rescale (Cert.KernelIdeal.KRun.scoreVec m c))
      (m ((c.tc : Thread Cert.KernelIdeal.nD Cert.KernelIdeal.τ).loc Cert.KernelIdeal.main_arg6)),
    Cert.KernelIdeal.KRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v79_eq, Cert.ReferenceIdeal.RefRun.v79_eq,
      (hagree c).1, (hagree c).2.1, (hagree c).2.2.1, (hagree c).2.2.2.1, (hagree c).2.2.2.2.1, (hagree c).2.2.2.2.2.1]
    exact congrArg Cert.ReferenceIdeal.Tail.rescale (Cert.Proof.Bridge.scoreVec_eq m c).symm
  · rw [Cert.ReferenceIdeal.Read.val_main_v93_eq, Cert.ReferenceIdeal.RefRun.v93_eq,
      (hagree c).1, (hagree c).2.1, (hagree c).2.2.1, (hagree c).2.2.2.1, (hagree c).2.2.2.2.1, (hagree c).2.2.2.2.2.1, (hagree c).2.2.2.2.2.2]
    exact congrArg (fun s => Cert.ReferenceIdeal.Tail.loss (Cert.ReferenceIdeal.Tail.rescale s)
      (m ((c.tc : Thread Cert.KernelIdeal.nD Cert.KernelIdeal.τ).loc Cert.KernelIdeal.main_arg6))) (Cert.Proof.Bridge.scoreVec_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
